-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩

abbrev nBuf : Space → Nat
  | .hbm => 112
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000x1, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x256, .f32⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | .hbm, ⟨90, _⟩ => ⟨S_, .f32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000x256, .f32⟩
  | .hbm, ⟨103, _⟩ => ⟨S850000x256, .f32⟩
  | .hbm, ⟨104, _⟩ => ⟨S850000x256, .f32⟩
  | .hbm, ⟨105, _⟩ => ⟨S_, .f32⟩
  | .hbm, ⟨106, _⟩ => ⟨S50000x256, .f32⟩
  | .hbm, ⟨107, _⟩ => ⟨S850000x1, .i32⟩
  | .hbm, ⟨108, _⟩ => ⟨S50000x256, .f32⟩
  | .hbm, ⟨109, _⟩ => ⟨S1x256, .f32⟩
  | .hbm, ⟨110, _⟩ => ⟨S50000x256, .f32⟩
  | .hbm, ⟨111, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_1_0_0_n_n_wf : DotDims.WF S5000x256 S256x256 S5000x256 [1] [1] [0] [0] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_1_0_0_n_n : DotDims S5000x256 S256x256 S5000x256 where
  lhsContracting := [1]
  rhsContracting := [1]
  lhsNonContracting := [0]
  rhsNonContracting := [0]
  lhsBatch := []
  rhsBatch := []
  wf := dot_S5000x256_S256x256_S5000x256_1_1_0_0_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S256x256, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S256x256, .f32⟩
  | .hbm, ⟨73, _⟩ => ⟨S50000x256, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x256, .f32⟩
  | .hbm, ⟨83, _⟩ => ⟨S850000x1, .f32⟩
  | .hbm, ⟨84, _⟩ => ⟨S850000x256, .f32⟩
  | .hbm, ⟨85, _⟩ => ⟨S850000x256, .f32⟩
  | .hbm, ⟨86, _⟩ => ⟨S_, .f32⟩
  | .hbm, ⟨87, _⟩ => ⟨S50000x256, .f32⟩
  | .hbm, ⟨88, _⟩ => ⟨S850000x1, .i32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S50000x256, .f32⟩
  | .hbm, ⟨95, _⟩ => ⟨S50000x256, .f32⟩
  | .hbm, ⟨96, _⟩ => ⟨S256x256, .f32⟩
  | .hbm, ⟨97, _⟩ => ⟨S50000x256, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x256, .f32⟩
  | .hbm, ⟨107, _⟩ => ⟨S850000x1, .f32⟩
  | .hbm, ⟨108, _⟩ => ⟨S850000x256, .f32⟩
  | .hbm, ⟨109, _⟩ => ⟨S850000x256, .f32⟩
  | .hbm, ⟨110, _⟩ => ⟨S_, .f32⟩
  | .hbm, ⟨111, _⟩ => ⟨S50000x256, .f32⟩
  | .hbm, ⟨112, _⟩ => ⟨S850000x1, .i32⟩
  | .hbm, ⟨113, _⟩ => ⟨S50000x256, .f32⟩
  | .hbm, ⟨114, _⟩ => ⟨S1x256, .f32⟩
  | .hbm, ⟨115, _⟩ => ⟨S50000x256, .f32⟩
  | .hbm, ⟨116, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_12 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S256x256_S256x256_1_0 : S256x256.Transposes [1, 0] S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The kernel program's run with every buffer's final contents named.

  The program is eleven segments: stretches of host operations and the three kernel regions. The contents of the
  TensorCore's buffers at each segment boundary are a fold from the launch memory (`W0`, …, `W11`: a stretch applies its
  operations, a region replaces its arrays by what its write-backs leave). Every weakly fair execution terminates, nothing
  faults, and every unscoped buffer ends at the last boundary's contents `W11`. The argument arrays read back through the
  fold to the launch memory; the result buffer's contents are `W11` at that buffer, which the value proof then reads.
-/
import proofs.«141587_j24584392802582_1_alg».proof.Proof.Gen.KernelIdeal.Frame

set_option maxRecDepth 16384

noncomputable section

namespace Cert.GCN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and every unscoped TensorCore buffer ends at
    the last boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run, read at the result buffer and at the eight argument arrays: the result ends at the fold's contents, the
    arguments as launched. -/
theorem run_result : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v80 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩)
    (run_held m ρ)

end Cert.GCN

end
-- ==== Proof.Stages.lean ====
/-
  The graph-convolution network as functions of whole arrays, one stage at a time.

  From the edge list `e` of shape [2, 800000] the program builds, once:
    * `rowT e`, `colT e` — the source and target node of each of the 850000 messages: the 800000 edges followed by one
      self loop per node (row 0, respectively row 1, of `e`, then 0, 1, …, 49999);
    * `degT` — each node's in-degree, counting its self loop: a scatter-add of ones onto the targets;
    * `dinvT` — `deg^(-1/2)` where the degree is positive, `0` elsewhere;
    * `normT` — each message's weight `dinv[source] · dinv[target]`, the indices first wrapped (a negative index has
      50000 added to it).
  One layer then takes the linearly transformed features `y`, gathers row `source` of `y` for each message, scales it by
  the message's weight, scatter-adds the messages onto their targets and adds the bias (`aggT`); between layers every
  entry is clamped below at `0` (`reluT`). The whole network (`netT`) is three layers over an ABSTRACT linear step
  `L`: the kernel and the reference differ only in how they compute that step.
-/
import proofs.«141587_j24584392802582_1_alg».proof.Proof.Gen.KernelIdeal
import Idealize.ShloMosaic.PureOps.Ideal

noncomputable section

namespace Cert.GCN

open Cert.KernelIdeal Cert.KernelIdeal.Gen Idealize.ShloMosaic

/-- The source node of each message: row 0 of the edge list, then one self loop per node. -/
def rowT (e : IVec S2x800000 32) : IVec S850000 32 :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- The target node of each message: row 1 of the edge list, then one self loop per node. -/
def colT (e : IVec S2x800000 32) : IVec S850000 32 :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- Each node's in-degree: ones scatter-added onto the targets, from zero. -/
def degT (cl : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 cl)
    (broadcastInDim S850000 ![] bcast_S_S850000 (constant (F := Ideal) S_ .f32 0x3F800000#32))

/-- `deg^(-1/2)` where the degree is positive, `0` elsewhere. -/
def dinvT (cl : IVec S850000 32) : FVec Ideal S50000 .f32 :=
  select (cmpf (F := Ideal) .ogt (degT cl) (broadcastInDim S50000 ![] bcast_S_S50000 (constant (F := Ideal) S_ .f32 0x00000000#32)))
    (Host.rsqrt (F := Ideal) (degT cl))
    (broadcastInDim S50000 ![] bcast_S_S50000 (id (constant (F := Ideal) S_ .f32 0x00000000#32)))

/-- An index vector wrapped (a negative index has 50000 added) and set as a column of start indices. -/
def wrapT (x : IVec S850000 32) : IVec S850000x1 32 :=
  broadcastInDim S850000x1 ![0] bcast_S850000_S850000x1_0
    (select (cmpi .slt x (broadcastInDim S850000 ![] bcast_S_S850000 (constantI S_ 32 0#32)))
      (addi x (broadcastInDim S850000 ![] bcast_S_S850000 (constantI S_ 32 50000#32))) x)

/-- Each message's weight: `dinv[source] · dinv[target]`. -/
def normT (r cl : IVec S850000 32) : FVec Ideal S850000 .f32 :=
  mulf (Host.gather gather_S50000_S850000x1_S850000_n_0_n_n_0_1_1 (dinvT cl) (wrapT r))
    (Host.gather gather_S50000_S850000x1_S850000_n_0_n_n_0_1_1 (dinvT cl) (wrapT cl))

/-- A vector of message weights set as a column, the form in which a layer broadcasts it across the 256 features. -/
def colOf (n : FVec Ideal S850000 .f32) : FVec Ideal S850000x1 .f32 :=
  broadcastInDim S850000x1 ![0] bcast_S850000_S850000x1_0 n

/-- The weights as a column. -/
def normColT (r cl : IVec S850000 32) : FVec Ideal S850000x1 .f32 :=
  colOf (normT r cl)

/-- One layer after its linear step `y`: gather the source rows, scale by the weight column `nc`, scatter-add onto the
    targets from zero, add the bias `b` along every row. -/
def aggT (y : FVec Ideal S50000x256 .f32) (r cl : IVec S850000 32) (nc : FVec Ideal S850000x1 .f32) (b : FVec Ideal S256 .f32) :
    FVec Ideal S50000x256 .f32 :=
  addf
    (Host.scatterAdd (F := Ideal) scatter_S50000x256_S850000x1_S850000x256_1_0_0_1
      (broadcastInDim S50000x256 ![] bcast_S_S50000x256 (constant (F := Ideal) S_ .f32 0x00000000#32))
      (broadcastInDim S850000x1 ![0] bcast_S850000_S850000x1_0 cl)
      (mulf (Host.gather gather_S50000x256_S850000x1_S850000x256_1_0_n_n_0_1_1256 y (wrapT r))
        (broadcastInDim S850000x256 ![0, 1] bcast_S850000x1_S850000x256_0_1 nc)))
    (broadcastInDim S50000x256 ![0, 1] bcast_S1x256_S50000x256_0_1 (broadcastInDim S1x256 ![1] bcast_S256_S1x256_1 b))

/-- Every entry clamped below at `0`. -/
def reluT (x : FVec Ideal S50000x256 .f32) : FVec Ideal S50000x256 .f32 :=
  maximumf x (broadcastInDim S50000x256 ![] bcast_S_S50000x256 (constant (F := Ideal) S_ .f32 0x00000000#32))

/-- The three layers over an abstract linear step `L`. -/
def netT (L : FVec Ideal S50000x256 .f32 → FVec Ideal S256x256 .f32 → FVec Ideal S50000x256 .f32)
    (x : FVec Ideal S50000x256 .f32) (e : IVec S2x800000 32)
    (W1 : FVec Ideal S256x256 .f32) (b1 : FVec Ideal S256 .f32) (W2 : FVec Ideal S256x256 .f32) (b2 : FVec Ideal S256 .f32)
    (W3 : FVec Ideal S256x256 .f32) (b3 : FVec Ideal S256 .f32) : FVec Ideal S50000x256 .f32 :=
  aggT (L (reluT (aggT (L (reluT (aggT (L x W1) (rowT e) (colT e) (normColT (rowT e) (colT e)) b1)) W2)
      (rowT e) (colT e) (normColT (rowT e) (colT e)) b2)) W3)
    (rowT e) (colT e) (normColT (rowT e) (colT e)) b3

end Cert.GCN

end
-- ==== Proof.LibFoldTools.lean ====
/-
  Two tools for reading a line of host operations at one buffer.

  The contents of a buffer after a line of host operations are a fold: each operation rewrites the buffer it writes and leaves
  the rest. The library's `after_results` opens the fold and then rewrites each operation's result at its own buffer to its
  function's value and at any other reference to what was there. Two situations it does not cover:

  * A fold that is ALREADY opened into its operations (after a first pass, or inside a subgoal): its opening step makes no
    progress and fails. `hlo_results` is the rewriting loop alone.
  * A concatenation. The rewriting cannot enter the list of pieces of a `concatenate`, because the proof that the pieces'
    shapes concatenate has a type that depends on that list; the loop stalls at the first result inside the list and every
    later closing step fails. `concat2_congr` enters a concatenation of two pieces: it depends only on the pieces, so the goal
    `concatenate t a [⟨s₁, x⟩, ⟨s₂, y⟩] h = concatenate t a [⟨s₁, x'⟩, ⟨s₂, y'⟩] h` splits into `x = x'` and `y = y'`, each read by
    `hlo_results`. For operations AFTER the concatenation, cut the line there (`StableHlo.after_append`) and read the rest
    from contents at which the concatenated buffer is an atom.
-/
import Idealize.ShloMosaic.Lib.StableHlo.Run

noncomputable section

namespace Cert.FoldTools

open Idealize.ShloMosaic Idealize.ShloMosaic.StableHlo

/-- Rewrites each operation's result at its own buffer to its function's value and at any other reference to what was
    there, on a fold that is already opened into its operations (nullary, unary, binary, ternary and reshape operations). -/
macro "hlo_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A concatenation of two pieces depends only on the pieces. -/
theorem concat2_congr {α : Type} (t : Shape) (a : Fin t.rank) (s₁ s₂ : Shape) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.FoldTools

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.KernelBody.lean ====
/-
  What one grid point's body computes, read at an entry.

  Each of the three kernels loads a block `x` of 5000 rows of the features and the whole weight `w`, narrows both to
  bf16 (the identity on the extended reals), multiplies `x` by `w` contracting the SECOND axis of each into a zero
  accumulator, and stores the product. So the stored block's entry `(p, c)` is `∑ k, x[p, k] · w[c, k]`. The second and third
  kernels first pass the block through a shape cast to its own shape, which changes nothing.
-/
import proofs.«141587_j24584392802582_1_alg».proof.Proof.Gen.KernelIdeal.Skeleton
import proofs.«141587_j24584392802582_1_alg».proof.Proof.LibRowProduct
import Idealize.ShloMosaic.Lib.Pipeline.Value

noncomputable section

namespace Cert.GCN

open Cert.KernelIdeal Cert.KernelIdeal.Gen Idealize.ShloMosaic Idealize.ShloMosaic.ValueIdx

/-! ## The product's dimension numbers: the six facts the row-product lemma asks for -/

/-- The left operand's first coordinate is the output row. -/
theorem dot_lhs0 (j : S5000x256.Idx) (q : dot_S5000x256_S256x256_S5000x256_1_1_0_0_n_n.contr.Idx) :
    (dot_S5000x256_S256x256_S5000x256_1_1_0_0_n_n.lhsIdx j q 0).val = (j 0).val := by
  unfold DotDims.lhsIdx
  rw [dif_neg (show ¬(0 : Fin S5000x256.rank) ∈ dot_S5000x256_S256x256_S5000x256_1_1_0_0_n_n.lhsBatch by decide),
    dif_pos (show (0 : Fin S5000x256.rank) ∈ dot_S5000x256_S256x256_S5000x256_1_1_0_0_n_n.lhsNonContracting by decide)]
  rfl

/-- The left operand's second coordinate is the contraction coordinate. -/
theorem dot_lhs1 (j : S5000x256.Idx) (q : dot_S5000x256_S256x256_S5000x256_1_1_0_0_n_n.contr.Idx) :
    (dot_S5000x256_S256x256_S5000x256_1_1_0_0_n_n.lhsIdx j q 1).val = (q ⟨0, by decide⟩).val :=
  dot_S5000x256_S256x256_S5000x256_1_1_0_0_n_n.lhsIdx_val_of_single rfl j q

/-- The right operand's first coordinate is the output column. -/
theorem dot_rhs0 (j : S5000x256.Idx) (q : dot_S5000x256_S256x256_S5000x256_1_1_0_0_n_n.contr.Idx) :
    (dot_S5000x256_S256x256_S5000x256_1_1_0_0_n_n.rhsIdx j q 0).val = (j 1).val := by
  unfold DotDims.rhsIdx
  rw [dif_neg (show ¬(0 : Fin S256x256.rank) ∈ dot_S5000x256_S256x256_S5000x256_1_1_0_0_n_n.rhsBatch by decide),
    dif_pos (show (0 : Fin S256x256.rank) ∈ dot_S5000x256_S256x256_S5000x256_1_1_0_0_n_n.rhsNonContracting by decide)]
  rfl

/-- The right operand's second coordinate is the contraction coordinate. -/
theorem dot_rhs1 (j : S5000x256.Idx) (q : dot_S5000x256_S256x256_S5000x256_1_1_0_0_n_n.contr.Idx) :
    (dot_S5000x256_S256x256_S5000x256_1_1_0_0_n_n.rhsIdx j q 1).val = (q ⟨0, by decide⟩).val :=
  dot_S5000x256_S256x256_S5000x256_1_1_0_0_n_n.rhsIdx_val_of_single rfl j q

/-- The product of a block by the weight, both read along their second axes, at an entry. -/
theorem rowProduct_apply (x : Vec Ideal S5000x256 .f32) (w : Vec Ideal S256x256 .f32) (p : Fin 5000) (c : Fin 256) :
    matmul dot_S5000x256_S256x256_S5000x256_1_1_0_0_n_n none (truncf .bf16 x bitsLt_bf16_f32) (truncf .bf16 w bitsLt_bf16_f32)
        (constant (F := Ideal) S5000x256 .f32 0x00000000#32) (ix2 p c)
      = ∑ k : Fin 256, x (ix2 p k) * w (ix2 c k) :=
  (Cert.RowProduct.matmul_zero_entry dot_S5000x256_S256x256_S5000x256_1_1_0_0_n_n rfl rfl dot_lhs0 dot_lhs1 dot_rhs0 dot_rhs1
    (truncf .bf16 x bitsLt_bf16_f32) (truncf .bf16 w bitsLt_bf16_f32) p c).trans rfl

/-! ## The three bodies -/

/-- The first kernel's stored block at an entry. -/
theorem pay0_apply (x : Vec Ideal S5000x256 .f32) (w : Vec Ideal S256x256 .f32) (p : Fin 5000) (c : Fin 256) :
    k0_pay1 (F := Ideal) x w (ix2 p c) = ∑ k : Fin 256, x (ix2 p k) * w (ix2 c k) := by
  unfold k0_pay1
  exact rowProduct_apply x w p c

/-- The second kernel's stored block at an entry: the shape cast to the block's own shape is the identity. -/
theorem pay1_apply (x : Vec Ideal S5000x256 .f32) (w : Vec Ideal S256x256 .f32) (p : Fin 5000) (c : Fin 256) :
    k1_pay1 (F := Ideal) x w (ix2 p c) = ∑ k : Fin 256, x (ix2 p k) * w (ix2 c k) := by
  unfold k1_pay1
  rw [shapeCast_self]
  exact rowProduct_apply x w p c

/-- The third kernel's stored block at an entry. -/
theorem pay2_apply (x : Vec Ideal S5000x256 .f32) (w : Vec Ideal S256x256 .f32) (p : Fin 5000) (c : Fin 256) :
    k2_pay1 (F := Ideal) x w (ix2 p c) = ∑ k : Fin 256, x (ix2 p k) * w (ix2 c k) := by
  unfold k2_pay1
  rw [shapeCast_self]
  exact rowProduct_apply x w p c

end Cert.GCN

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.Linear.lean ====
/-
  The linear step of one graph-convolution layer, as a function of whole arrays.

  For node features `h` of shape [50000, 256] and a weight `W` of shape [256, 256] stored as [out, in], the layer's linear
  step is `h · Wᵀ`. It is taken here in the form the reference computes it — the host product of `h` with the transpose
  of `W`, contracting `h`'s second axis against the transpose's first — and read at an entry: on the extended reals
  the entry `(p, c)` is `∑ k, h[p, k] · W[c, k]`, the transpose trading `Wᵀ[k, c]` for `W[c, k]`.
-/
import proofs.«141587_j24584392802582_1_alg».proof.Proof.Gen.ReferenceIdeal
import proofs.«141587_j24584392802582_1_alg».proof.Proof.LibHostProduct
import Idealize.ShloMosaic.Lib.Pipeline.Value

noncomputable section

namespace Cert.GCN

open Cert.ReferenceIdeal Cert.ReferenceIdeal.Gen Idealize.ShloMosaic Idealize.ShloMosaic.ValueIdx

/-! ## The host product's dimension numbers -/

/-- The left operand's first coordinate is the output row. -/
theorem hdot_lhs0 (j : S50000x256.Idx) (q : dot_S50000x256_S256x256_S50000x256_1_0_0_1_n_n.contr.Idx) :
    (dot_S50000x256_S256x256_S50000x256_1_0_0_1_n_n.lhsIdx j q 0).val = (j 0).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl

/-- The left operand's second coordinate is the contraction coordinate. -/
theorem hdot_lhs1 (j : S50000x256.Idx) (q : dot_S50000x256_S256x256_S50000x256_1_0_0_1_n_n.contr.Idx) :
    (dot_S50000x256_S256x256_S50000x256_1_0_0_1_n_n.lhsIdx j q 1).val = (q ⟨0, by decide⟩).val :=
  dot_S50000x256_S256x256_S50000x256_1_0_0_1_n_n.lhsIdx_val_of_single rfl j q

/-- The right operand's first coordinate is the contraction coordinate. -/
theorem hdot_rhs0 (j : S50000x256.Idx) (q : dot_S50000x256_S256x256_S50000x256_1_0_0_1_n_n.contr.Idx) :
    (dot_S50000x256_S256x256_S50000x256_1_0_0_1_n_n.rhsIdx j q 0).val = (q ⟨0, by decide⟩).val :=
  dot_S50000x256_S256x256_S50000x256_1_0_0_1_n_n.rhsIdx_val_of_single rfl j q

/-- The right operand's second coordinate is the output column. -/
theorem hdot_rhs1 (j : S50000x256.Idx) (q : dot_S50000x256_S256x256_S50000x256_1_0_0_1_n_n.contr.Idx) :
    (dot_S50000x256_S256x256_S50000x256_1_0_0_1_n_n.rhsIdx j q 1).val = (j 1).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

/-! ## The step and its entries -/

/-- `h · Wᵀ` over the extended reals: the host product of `h` with the transpose of `W`. -/
def lin (h : FVec Ideal S50000x256 .f32) (W : FVec Ideal S256x256 .f32) : FVec Ideal S50000x256 .f32 :=
  Host.dotGeneral (F := Ideal) dot_S50000x256_S256x256_S50000x256_1_0_0_1_n_n none h
    (transpose S256x256 [1, 0] W transposes_S256x256_S256x256_1_0)

/-- Entry `(p, c)` of `h · Wᵀ` is the sum over `k` of `h[p, k] · W[c, k]`. -/
theorem lin_apply (h : FVec Ideal S50000x256 .f32) (W : FVec Ideal S256x256 .f32) (p : Fin 50000) (c : Fin 256) :
    lin h W (ix2 p c) = ∑ k : Fin 256, h (ix2 p k) * W (ix2 c k) := by
  unfold lin
  refine (Cert.HostProduct.dotGeneral_entry dot_S50000x256_S256x256_S50000x256_1_0_0_1_n_n rfl rfl
    hdot_lhs0 hdot_lhs1 hdot_rhs0 hdot_rhs1 h (transpose S256x256 [1, 0] W transposes_S256x256_S256x256_1_0) p c).trans ?_
  refine Finset.sum_congr rfl fun k _ => ?_
  -- the transpose at (k, c) is the weight at (c, k)
  rw [transpose_apply [1, 0] W transposes_S256x256_S256x256_1_0 (ix2 k c) (ix2 c k)
    (fun b => match b with | ⟨0, _⟩ => rfl | ⟨1, _⟩ => rfl)]

end Cert.GCN

end
-- ==== Proof.KernelRegion.lean ====
/-
  What each of the three kernel regions leaves in its result array.

  A region runs its body at ten grid points. At point `t` the body sees rows `5000·t … 5000·t + 4999` of the features and the
  whole weight, and what it stores is written back to the same rows of the result. The ten row blocks tile the 50000 rows,
  so after the region the result array is ONE function of the two arrays the region was entered with: `lin` of the
  features and the weight, the entry `(r, q)` being `∑ k, features[r, k] · weight[q, k]`. This is stated at the region's
  entry contents `V`, whatever they are; the run instantiates them.
-/
import proofs.«141587_j24584392802582_1_alg».proof.Proof.Gen.KernelIdeal.Frame
import proofs.«141587_j24584392802582_1_alg».proof.Proof.KernelBody
import proofs.«141587_j24584392802582_1_alg».proof.Proof.Linear
import Idealize.ShloMosaic.Lib.Pipeline.Value

noncomputable section

namespace Cert.GCN

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The origin of every block's one rectangle. -/
theorem hz : (![0, 0] : Fin 2 → Nat) = fun _ => 0 := funext fun a => by fin_cases a <;> rfl

/-- Region 0's stored block against `lin`: if the block `x` is rows `5000·b …` of `h` and `w` is `W`, the block's entry
    `(p, q)` is `lin h W` at row `5000·b + p`, column `q` — both are the sum over `k` of `h[5000·b + p, k] · W[q, k]`. -/
theorem block_entry0 (h : FVec Ideal S50000x256 .f32) (W : FVec Ideal S256x256 .f32)
    (x : Vec Ideal S5000x256 .f32) (w : Vec Ideal S256x256 .f32) (b : ℕ)
    (hx : ∀ (p : Fin 5000) (k : Fin 256) (r : Fin 50000), r.val = b * 5000 + p.val → x (ix2 p k) = h (ix2 r k))
    (hw : ∀ c k : Fin 256, w (ix2 c k) = W (ix2 c k))
    (p : Fin 5000) (q : Fin 256) (r : Fin 50000) (hr : r.val = b * 5000 + p.val) :
    k0_pay1 (F := Ideal) x w (ix2 p q) = lin h W (ix2 r q) := by
  rw [pay0_apply, lin_apply]
  exact Finset.sum_congr rfl fun k _ => by rw [hx p k r hr, hw q k]

/-! ## Region 0: features `main_arg0`, weight `main_arg2`, result `main_v31` -/

/-- The printed index maps over the ten grid points: the features' block and the result's block move together along the
    rows, every other block index is `0`, and the row block index stays below ten. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem idx_onto0 : ∀ q : Fin 10, ∃ t : Fin cfg0.N, win0_2.index t = ![q.val, 0] :=
  (by decide +kernel : ∀ q : Fin 10, ∃ t : Fin grid0.N, win0_2.index t = ![q.val, 0])

/-- What grid point `t` writes back is block `t` of `lin` of the two arrays as the region finds them: the point's block of
    the features is rows `5000·t … 5000·t + 4999`, the weight's block is the whole weight, and the stored product's entry
    `(p, q)` is the sum defining `lin` at row `5000·t + p`, column `q`. -/
theorem flushed0_eq (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  obtain ⟨e0, e1, e2, e3, e4, e5⟩ := idx_facts0 t
  funext j
  obtain ⟨p, q, rfl⟩ : ∃ (p : Fin 5000) (q : Fin 256), j = ix2 p q := ⟨j 0, j 1, eq_ix2 j⟩
  have hp : p.val < 5000 := p.isLt
  have hr : win0_2.index t (0 : Fin 2) * 5000 + p.val < 50000 := by omega
  have hemb : ((cfg0.win 2).blk t).view.emb (ix2 p q) = ix2 (⟨win0_2.index t (0 : Fin 2) * 5000 + p.val, hr⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  show k0_pay1 (iblk0 V c 0 t) (iblk0 V c 1 t) (ix2 p q) = lin (V c main_arg0) (V c main_arg2) (((cfg0.win 2).blk t).view.emb (ix2 p q))
  rw [hemb]
  refine block_entry0 (V c main_arg0) (V c main_arg2) (iblk0 V c 0 t) (iblk0 V c 1 t) (win0_2.index t (0 : Fin 2)) ?_ ?_ p q
    (⟨win0_2.index t (0 : Fin 2) * 5000 + p.val, hr⟩ : Fin 50000) rfl
  · intro p' k r hr'
    have hp' : p'.val < 5000 := p'.isLt
    show V c main_arg0 (((cfg0.win 0).blk t).view.emb (ix2 p' k)) = V c main_arg0 (ix2 r k)
    refine congrArg (V c main_arg0) (funext fun a => Fin.ext ?_)
    match a with
    | ⟨0, _⟩ => show win0_0.index t (0 : Fin 2) * 5000 + 1 * p'.val = r.val; omega
    | ⟨1, _⟩ => show win0_0.index t (1 : Fin 2) * 256 + 1 * k.val = k.val; omega
  · intro c' k
    show V c main_arg2 (((cfg0.win 1).blk t).view.emb (ix2 c' k)) = V c main_arg2 (ix2 c' k)
    refine congrArg (V c main_arg2) (funext fun a => Fin.ext ?_)
    match a with
    | ⟨0, _⟩ => show win0_1.index t (0 : Fin 2) * 256 + 1 * c'.val = c'.val; omega
    | ⟨1, _⟩ => show win0_1.index t (1 : Fin 2) * 256 + 1 * k.val = k.val; omega

/-- An index of the result array is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v31).slice (win0_2.rect t)).set ↔ _
  rw [View.set_slice_whole, Rect.mem_set_unit]
  exact Iff.rfl

/-- The ten row blocks tile the result array: row `r` is in the block of the point whose row block index is `r / 5000`. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After region 0 its result array holds `lin` of the features and the weight as the region found them. -/
theorem region0 (c : Dev nD) : (dat0 V c).arrAt 2 cfg0.N = lin (V c main_arg0) (V c main_arg2) :=
  (dat0 V c).arrAt_eq_of_cover 2 _ (fun t _ => flushed0_eq V c t) (cover0)

/-- Region 1's stored block against `lin`: if the block `x` is rows `5000·b …` of `h` and `w` is `W`, the block's entry
    `(p, q)` is `lin h W` at row `5000·b + p`, column `q` — both are the sum over `k` of `h[5000·b + p, k] · W[q, k]`. -/
theorem block_entry1 (h : FVec Ideal S50000x256 .f32) (W : FVec Ideal S256x256 .f32)
    (x : Vec Ideal S5000x256 .f32) (w : Vec Ideal S256x256 .f32) (b : ℕ)
    (hx : ∀ (p : Fin 5000) (k : Fin 256) (r : Fin 50000), r.val = b * 5000 + p.val → x (ix2 p k) = h (ix2 r k))
    (hw : ∀ c k : Fin 256, w (ix2 c k) = W (ix2 c k))
    (p : Fin 5000) (q : Fin 256) (r : Fin 50000) (hr : r.val = b * 5000 + p.val) :
    k1_pay1 (F := Ideal) x w (ix2 p q) = lin h W (ix2 r q) := by
  rw [pay1_apply, lin_apply]
  exact Finset.sum_congr rfl fun k _ => by rw [hx p k r hr, hw q k]

/-! ## Region 1: features `main_v47`, weight `main_arg4`, result `main_v48` -/

/-- The printed index maps over the ten grid points: the features' block and the result's block move together along the
    rows, every other block index is `0`, and the row block index stays below ten. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's. -/
theorem idx_onto1 : ∀ q : Fin 10, ∃ t : Fin cfg1.N, win1_2.index t = ![q.val, 0] :=
  (by decide +kernel : ∀ q : Fin 10, ∃ t : Fin grid1.N, win1_2.index t = ![q.val, 0])

/-- What grid point `t` writes back is block `t` of `lin` of the two arrays as the region finds them: the point's block of
    the features is rows `5000·t … 5000·t + 4999`, the weight's block is the whole weight, and the stored product's entry
    `(p, q)` is the sum defining `lin` at row `5000·t + p`, column `q`. -/
theorem flushed1_eq (c : Dev nD) (t : Fin cfg1.N) :
    (dat1 V c).flushed 2 t = ((cfg1.win 2).blk t).view.read (Elt Ideal) (lin (V c main_v47) (V c main_arg4)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨e0, e1, e2, e3, e4, e5⟩ := idx_facts1 t
  funext j
  obtain ⟨p, q, rfl⟩ : ∃ (p : Fin 5000) (q : Fin 256), j = ix2 p q := ⟨j 0, j 1, eq_ix2 j⟩
  have hp : p.val < 5000 := p.isLt
  have hr : win1_2.index t (0 : Fin 2) * 5000 + p.val < 50000 := by omega
  have hemb : ((cfg1.win 2).blk t).view.emb (ix2 p q) = ix2 (⟨win1_2.index t (0 : Fin 2) * 5000 + p.val, hr⟩ : Fin 50000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 256 + 1 * q.val = q.val; omega
  show k1_pay1 (iblk1 V c 0 t) (iblk1 V c 1 t) (ix2 p q) = lin (V c main_v47) (V c main_arg4) (((cfg1.win 2).blk t).view.emb (ix2 p q))
  rw [hemb]
  refine block_entry1 (V c main_v47) (V c main_arg4) (iblk1 V c 0 t) (iblk1 V c 1 t) (win1_2.index t (0 : Fin 2)) ?_ ?_ p q
    (⟨win1_2.index t (0 : Fin 2) * 5000 + p.val, hr⟩ : Fin 50000) rfl
  · intro p' k r hr'
    have hp' : p'.val < 5000 := p'.isLt
    show V c main_v47 (((cfg1.win 0).blk t).view.emb (ix2 p' k)) = V c main_v47 (ix2 r k)
    refine congrArg (V c main_v47) (funext fun a => Fin.ext ?_)
    match a with
    | ⟨0, _⟩ => show win1_0.index t (0 : Fin 2) * 5000 + 1 * p'.val = r.val; omega
    | ⟨1, _⟩ => show win1_0.index t (1 : Fin 2) * 256 + 1 * k.val = k.val; omega
  · intro c' k
    show V c main_arg4 (((cfg1.win 1).blk t).view.emb (ix2 c' k)) = V c main_arg4 (ix2 c' k)
    refine congrArg (V c main_arg4) (funext fun a => Fin.ext ?_)
    match a with
    | ⟨0, _⟩ => show win1_1.index t (0 : Fin 2) * 256 + 1 * c'.val = c'.val; omega
    | ⟨1, _⟩ => show win1_1.index t (1 : Fin 2) * 256 + 1 * k.val = k.val; omega

/-- An index of the result array is in point `t`'s block iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- The ten row blocks tile the result array: row `r` is in the block of the point whose row block index is `r / 5000`. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After region 1 its result array holds `lin` of the features and the weight as the region found them. -/
theorem region1 (c : Dev nD) : (dat1 V c).arrAt 2 cfg1.N = lin (V c main_v47) (V c main_arg4) :=
  (dat1 V c).arrAt_eq_of_cover 2 _ (fun t _ => flushed1_eq V c t) (cover1)

/-- Region 2's stored block against `lin`: if the block `x` is rows `5000·b …` of `h` and `w` is `W`, the block's entry
    `(p, q)` is `lin h W` at row `5000·b + p`, column `q` — both are the sum over `k` of `h[5000·b + p, k] · W[q, k]`. -/
theorem block_entry2 (h : FVec Ideal S50000x256 .f32) (W : FVec Ideal S256x256 .f32)
    (x : Vec Ideal S5000x256 .f32) (w : Vec Ideal S256x256 .f32) (b : ℕ)
    (hx : ∀ (p : Fin 5000) (k : Fin 256) (r : Fin 50000), r.val = b * 5000 + p.val → x (ix2 p k) = h (ix2 r k))
    (hw : ∀ c k : Fin 256, w (ix2 c k) = W (ix2 c k))
    (p : Fin 5000) (q : Fin 256) (r : Fin 50000) (hr : r.val = b * 5000 + p.val) :
    k2_pay1 (F := Ideal) x w (ix2 p q) = lin h W (ix2 r q) := by
  rw [pay2_apply, lin_apply]
  exact Finset.sum_congr rfl fun k _ => by rw [hx p k r hr, hw q k]

/-! ## Region 2: features `main_v64`, weight `main_arg6`, result `main_v65` -/

/-- The printed index maps over the ten grid points: the features' block and the result's block move together along the
    rows, every other block index is `0`, and the row block index stays below ten. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some grid point's. -/
theorem idx_onto2 : ∀ q : Fin 10, ∃ t : Fin cfg2.N, win2_2.index t = ![q.val, 0] :=
  (by decide +kernel : ∀ q : Fin 10, ∃ t : Fin grid2.N, win2_2.index t = ![q.val, 0])

/-- What grid point `t` writes back is block `t` of `lin` of the two arrays as the region finds them: the point's block of
    the features is rows `5000·t … 5000·t + 4999`, the weight's block is the whole weight, and the stored product's entry
    `(p, q)` is the sum defining `lin` at row `5000·t + p`, column `q`. -/
theorem flushed2_eq (c : Dev nD) (t : Fin cfg2.N) :
    (dat2 V c).flushed 2 t = ((cfg2.win 2).blk t).view.read (Elt Ideal) (lin (V c main_v64) (V c main_arg6)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  obtain ⟨e0, e1, e2, e3, e4, e5⟩ := idx_facts2 t
  funext j
  obtain ⟨p, q, rfl⟩ : ∃ (p : Fin 5000) (q : Fin 256), j = ix2 p q := ⟨j 0, j 1, eq_ix2 j⟩
  have hp : p.val < 5000 := p.isLt
  have hr : win2_2.index t (0 : Fin 2) * 5000 + p.val < 50000 := by omega
  have hemb : ((cfg2.win 2).blk t).view.emb (ix2 p q) = ix2 (⟨win2_2.index t (0 : Fin 2) * 5000 + p.val, hr⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 256 + 1 * q.val = q.val; omega
  show k2_pay1 (iblk2 V c 0 t) (iblk2 V c 1 t) (ix2 p q) = lin (V c main_v64) (V c main_arg6) (((cfg2.win 2).blk t).view.emb (ix2 p q))
  rw [hemb]
  refine block_entry2 (V c main_v64) (V c main_arg6) (iblk2 V c 0 t) (iblk2 V c 1 t) (win2_2.index t (0 : Fin 2)) ?_ ?_ p q
    (⟨win2_2.index t (0 : Fin 2) * 5000 + p.val, hr⟩ : Fin 50000) rfl
  · intro p' k r hr'
    have hp' : p'.val < 5000 := p'.isLt
    show V c main_v64 (((cfg2.win 0).blk t).view.emb (ix2 p' k)) = V c main_v64 (ix2 r k)
    refine congrArg (V c main_v64) (funext fun a => Fin.ext ?_)
    match a with
    | ⟨0, _⟩ => show win2_0.index t (0 : Fin 2) * 5000 + 1 * p'.val = r.val; omega
    | ⟨1, _⟩ => show win2_0.index t (1 : Fin 2) * 256 + 1 * k.val = k.val; omega
  · intro c' k
    show V c main_arg6 (((cfg2.win 1).blk t).view.emb (ix2 c' k)) = V c main_arg6 (ix2 c' k)
    refine congrArg (V c main_arg6) (funext fun a => Fin.ext ?_)
    match a with
    | ⟨0, _⟩ => show win2_1.index t (0 : Fin 2) * 256 + 1 * c'.val = c'.val; omega
    | ⟨1, _⟩ => show win2_1.index t (1 : Fin 2) * 256 + 1 * k.val = k.val; omega

/-- An index of the result array is in point `t`'s block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v65).slice (win2_2.rect t)).set ↔ _
  rw [View.set_slice_whole, Rect.mem_set_unit]
  exact Iff.rfl

/-- The ten row blocks tile the result array: row `r` is in the block of the point whose row block index is `r / 5000`. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After region 2 its result array holds `lin` of the features and the weight as the region found them. -/
theorem region2 (c : Dev nD) : (dat2 V c).arrAt 2 cfg2.N = lin (V c main_v64) (V c main_arg6) :=
  (dat2 V c).arrAt_eq_of_cover 2 _ (fun t _ => flushed2_eq V c t) (cover2)

end Cert.GCN

end
-- ==== Proof.KernelOps.lean ====
/-
  The kernel program's host stretches as lists, and what each leaves alone.

  The first stretch is cut after its seventh operation, where the two index vectors are complete. For each group of stretches
  the references its operations write are listed once; any other reference keeps its contents through the group.
-/
import proofs.«141587_j24584392802582_1_alg».proof.Proof.Gen.KernelIdeal.Frame
import proofs.«141587_j24584392802582_1_alg».proof.Proof.Stages
import proofs.«141587_j24584392802582_1_alg».proof.Proof.LibFoldTools

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

/-! ## The stretches -/

section Lists
variable {F : FTy → Type} [FloatOps F]

/-- The first seven host operations: the two index vectors. -/
abbrev pre7 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The rest of the first stretch: the degree, its comparison with zero and its inverse square root. -/
abbrev post11 : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]
theorem hostOps0_split : (hostOps0 : List (HloOp τ sig (Elt F))) = pre7 ++ post11 := rfl

abbrev pre7_W : List (Ref sig .tc) := [main_v0, main_v1, main_v2, main_v3, main_v4, main_v5, main_v6]
abbrev mid_W : List (Ref sig .tc) := [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30]
abbrev lay1_W : List (Ref sig .tc) := [main_c_6, main_v32, main_v33, main_c_7, main_v34, main_v35, main_v36, main_v37, main_v38, main_v39, main_v40, main_cst_8, main_v41, main_v42, main_v43, main_v44, main_v45, main_v46, main_call1_cst, main_call1_v0, main_v47]
abbrev lay2_W : List (Ref sig .tc) := [main_c_9, main_v49, main_v50, main_c_10, main_v51, main_v52, main_v53, main_v54, main_v55, main_v56, main_v57, main_cst_11, main_v58, main_v59, main_v60, main_v61, main_v62, main_v63, main_call2_cst, main_call2_v0, main_v64]
abbrev lay3_W : List (Ref sig .tc) := [main_c_12, main_v66, main_v67, main_c_13, main_v68, main_v69, main_v70, main_v71, main_v72, main_v73, main_v74, main_cst_14, main_v75, main_v76, main_v77, main_v78, main_v79, main_v80]

theorem pre7_writes : (pre7 : List (HloOp τ sig (Elt F))).Forall fun op => op.writes ⊆ (pre7_W.map (Proc.devRef (τ := τ) .tc)).toFinset := by
  simp only [pre7, List.Forall]
  repeat' apply And.intro
  all_goals (simp only [nullary_writes, unary_writes, binary_writes, ternary_writes, quaternary_writes, reshape_writes, Finset.singleton_subset_iff, List.mem_toFinset]; exact List.mem_map_of_mem (by decide))
theorem post11_writes : (post11 : List (HloOp τ sig (Elt F))).Forall fun op => op.writes ⊆ (mid_W.map (Proc.devRef (τ := τ) .tc)).toFinset := by
  simp only [post11, List.Forall]
  repeat' apply And.intro
  all_goals (simp only [nullary_writes, unary_writes, binary_writes, ternary_writes, quaternary_writes, reshape_writes, Finset.singleton_subset_iff, List.mem_toFinset]; exact List.mem_map_of_mem (by decide))
theorem hostOps0_1_writes : (hostOps0_1 : List (HloOp τ sig (Elt F))).Forall fun op => op.writes ⊆ (mid_W.map (Proc.devRef (τ := τ) .tc)).toFinset := by
  simp only [hostOps0_1, List.Forall]
  repeat' apply And.intro
  all_goals (simp only [nullary_writes, unary_writes, binary_writes, ternary_writes, quaternary_writes, reshape_writes, Finset.singleton_subset_iff, List.mem_toFinset]; exact List.mem_map_of_mem (by decide))
theorem hostOps0_2_writes : (hostOps0_2 : List (HloOp τ sig (Elt F))).Forall fun op => op.writes ⊆ (mid_W.map (Proc.devRef (τ := τ) .tc)).toFinset := by
  simp only [hostOps0_2, List.Forall]
  repeat' apply And.intro
  all_goals (simp only [nullary_writes, unary_writes, binary_writes, ternary_writes, quaternary_writes, reshape_writes, Finset.singleton_subset_iff, List.mem_toFinset]; exact List.mem_map_of_mem (by decide))
theorem hostOps1_writes : (hostOps1 : List (HloOp τ sig (Elt F))).Forall fun op => op.writes ⊆ (lay1_W.map (Proc.devRef (τ := τ) .tc)).toFinset := by
  simp only [hostOps1, List.Forall]
  repeat' apply And.intro
  all_goals (simp only [nullary_writes, unary_writes, binary_writes, ternary_writes, quaternary_writes, reshape_writes, Finset.singleton_subset_iff, List.mem_toFinset]; exact List.mem_map_of_mem (by decide))
theorem hostOps1_1_writes : (hostOps1_1 : List (HloOp τ sig (Elt F))).Forall fun op => op.writes ⊆ (lay1_W.map (Proc.devRef (τ := τ) .tc)).toFinset := by
  simp only [hostOps1_1, List.Forall]
  repeat' apply And.intro
  all_goals (simp only [nullary_writes, unary_writes, binary_writes, ternary_writes, quaternary_writes, reshape_writes, Finset.singleton_subset_iff, List.mem_toFinset]; exact List.mem_map_of_mem (by decide))
theorem hostOps2_writes : (hostOps2 : List (HloOp τ sig (Elt F))).Forall fun op => op.writes ⊆ (lay2_W.map (Proc.devRef (τ := τ) .tc)).toFinset := by
  simp only [hostOps2, List.Forall]
  repeat' apply And.intro
  all_goals (simp only [nullary_writes, unary_writes, binary_writes, ternary_writes, quaternary_writes, reshape_writes, Finset.singleton_subset_iff, List.mem_toFinset]; exact List.mem_map_of_mem (by decide))
theorem hostOps2_1_writes : (hostOps2_1 : List (HloOp τ sig (Elt F))).Forall fun op => op.writes ⊆ (lay2_W.map (Proc.devRef (τ := τ) .tc)).toFinset := by
  simp only [hostOps2_1, List.Forall]
  repeat' apply And.intro
  all_goals (simp only [nullary_writes, unary_writes, binary_writes, ternary_writes, quaternary_writes, reshape_writes, Finset.singleton_subset_iff, List.mem_toFinset]; exact List.mem_map_of_mem (by decide))
theorem hostOps3_writes : (hostOps3 : List (HloOp τ sig (Elt F))).Forall fun op => op.writes ⊆ (lay3_W.map (Proc.devRef (τ := τ) .tc)).toFinset := by
  simp only [hostOps3, List.Forall]
  repeat' apply And.intro
  all_goals (simp only [nullary_writes, unary_writes, binary_writes, ternary_writes, quaternary_writes, reshape_writes, Finset.singleton_subset_iff, List.mem_toFinset]; exact List.mem_map_of_mem (by decide))

end Lists

section Keep
variable (V : Valuation τ sig (Elt Ideal))

theorem pre7_keep (r : Ref sig .tc) (h : r ∉ pre7_W) : after pre7 V (Proc.devRef .tc r) = V (Proc.devRef .tc r) :=
  after_of_writes_sub pre7 _ pre7_writes h
theorem mid_keep (r : Ref sig .tc) (h : r ∉ mid_W) :
    after hostOps0_2 (after hostOps0_1 (after post11 V)) (Proc.devRef .tc r) = V (Proc.devRef .tc r) :=
  (after_of_writes_sub hostOps0_2 _ hostOps0_2_writes h).trans
    ((after_of_writes_sub hostOps0_1 _ hostOps0_1_writes h).trans (after_of_writes_sub post11 _ post11_writes h))
theorem lay1_keep (r : Ref sig .tc) (h : r ∉ lay1_W) :
    after hostOps1_1 (after hostOps1 V) (Proc.devRef .tc r) = V (Proc.devRef .tc r) :=
  (after_of_writes_sub hostOps1_1 _ hostOps1_1_writes h).trans (after_of_writes_sub hostOps1 _ hostOps1_writes h)
theorem lay2_keep (r : Ref sig .tc) (h : r ∉ lay2_W) :
    after hostOps2_1 (after hostOps2 V) (Proc.devRef .tc r) = V (Proc.devRef .tc r) :=
  (after_of_writes_sub hostOps2_1 _ hostOps2_1_writes h).trans (after_of_writes_sub hostOps2 _ hostOps2_writes h)

end Keep

end Cert.GCN

end
-- ==== Proof.KernelIdx.lean ====
/-
  The two index vectors after the first seven host operations: the source and the target node of every message, each a
  row of the edge list followed by one self loop per node.
-/
import proofs.«141587_j24584392802582_1_alg».proof.Proof.Gen.KernelIdeal.Frame
import proofs.«141587_j24584392802582_1_alg».proof.Proof.Stages
import proofs.«141587_j24584392802582_1_alg».proof.Proof.LibFoldTools
import proofs.«141587_j24584392802582_1_alg».proof.Proof.KernelOps

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

section Stretch
variable (V : Valuation τ sig (Elt Ideal))

/-- The source index vector after the first seven operations. -/
theorem pre7_v3 : after pre7 V (Proc.devRef .tc main_v3) = rowT (V (Proc.devRef .tc main_arg1)) := by
  simp only [pre7, after_cons, after_nil]
  hlo_results
  unfold rowT
  refine concat2_congr _ _ _ _ _ ?_ ?_
  · hlo_results
    all_goals rfl
  · hlo_results
    all_goals rfl

/-- The target index vector after the first seven operations. -/
theorem pre7_v6 : after pre7 V (Proc.devRef .tc main_v6) = colT (V (Proc.devRef .tc main_arg1)) := by
  simp only [pre7, after_cons, after_nil]
  hlo_results
  unfold colT
  refine concat2_congr _ _ _ _ _ ?_ ?_
  · hlo_results
    all_goals rfl
  · hlo_results
    all_goals rfl

end Stretch

end Cert.GCN

end
-- ==== Proof.KernelNorm.lean ====
/-
  The column of message weights, as a function of the two index vectors.

  The stretches between the index vectors and the first region are read one at a time: the rest of the first stretch
  computes the degree of every node (ones scatter-added onto the targets), its comparison with zero and its inverse square
  root; the outlined select keeps the inverse square root where the degree is positive and puts zero elsewhere; the last
  stretch gathers that vector at the wrapped source and target of every message, multiplies the two, and sets the product
  as a column. Composed, the column is `normColT` of the two index vectors.
-/
import proofs.«141587_j24584392802582_1_alg».proof.Proof.Gen.KernelIdeal.Frame
import proofs.«141587_j24584392802582_1_alg».proof.Proof.Stages
import proofs.«141587_j24584392802582_1_alg».proof.Proof.LibFoldTools
import proofs.«141587_j24584392802582_1_alg».proof.Proof.KernelOps

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

section Stretch
variable (V : Valuation τ sig (Elt Ideal))

set_option maxHeartbeats 4000000 in
/-- The degree compared with zero. -/
theorem post11_v12 : after post11 V (Proc.devRef .tc main_v12)
    = cmpf (F := Ideal) .ogt (degT (V (Proc.devRef .tc main_v6))) (broadcastInDim S50000 ![] bcast_S_S50000 (constant (F := Ideal) S_ .f32 0x00000000#32)) := by
  after_results_simp
  unfold degT
  all_goals (with_reducible rfl)

set_option maxHeartbeats 4000000 in
/-- The degree's inverse square root. -/
theorem post11_v13 : after post11 V (Proc.devRef .tc main_v13) = Host.rsqrt (F := Ideal) (degT (V (Proc.devRef .tc main_v6))) := by
  after_results_simp
  unfold degT
  all_goals (with_reducible rfl)

/-- The zero the select falls back to. -/
theorem post11_cst2 : after post11 V (Proc.devRef .tc main_cst_2) = constant (F := Ideal) S_ .f32 0x00000000#32 := by
  after_results_simp

/-- The outlined select: the second operand where the mask is set, the broadcast scalar elsewhere. -/
theorem where_v14 : after hostOps0_1 V (Proc.devRef .tc main_v14)
    = select (V (Proc.devRef .tc main_v12)) (V (Proc.devRef .tc main_v13)) (broadcastInDim S50000 ![] bcast_S_S50000 (id (V (Proc.devRef .tc main_cst_2)))) := by
  after_results_simp
  simp only [TRef.toBuf, TRef.ofBuf, cast_eq]
  all_goals (with_reducible rfl)

set_option maxHeartbeats 4000000 in
/-- The weights column from the select's result and the two index vectors. -/
theorem ops02_v30 : after hostOps0_2 V (Proc.devRef .tc main_v30)
    = colOf (mulf (Host.gather gather_S50000_S850000x1_S850000_n_0_n_n_0_1_1 (V (Proc.devRef .tc main_v14)) (wrapT (V (Proc.devRef .tc main_v3))))
        (Host.gather gather_S50000_S850000x1_S850000_n_0_n_n_0_1_1 (V (Proc.devRef .tc main_v14)) (wrapT (V (Proc.devRef .tc main_v6))))) := by
  after_results_simp
  unfold colOf wrapT
  all_goals (with_reducible rfl)

/-- The select's result is `dinvT` of the target index vector. -/
theorem mid_v14 : after hostOps0_1 (after post11 V) (Proc.devRef .tc main_v14) = dinvT (V (Proc.devRef .tc main_v6)) := by
  rw [where_v14, post11_v12, post11_v13, post11_cst2]
  rfl

/-- The column of message weights, from the two index vectors. -/
theorem mid_v30 : after hostOps0_2 (after hostOps0_1 (after post11 V)) (Proc.devRef .tc main_v30)
    = normColT (V (Proc.devRef .tc main_v3)) (V (Proc.devRef .tc main_v6)) := by
  rw [ops02_v30, mid_v14,
    (after_of_writes_sub hostOps0_1 _ hostOps0_1_writes (by decide : main_v3 ∉ mid_W)),
    (after_of_writes_sub post11 _ post11_writes (by decide : main_v3 ∉ mid_W)),
    (after_of_writes_sub hostOps0_1 _ hostOps0_1_writes (by decide : main_v6 ∉ mid_W)),
    (after_of_writes_sub post11 _ post11_writes (by decide : main_v6 ∉ mid_W))]
  rfl

end Stretch

end Cert.GCN

end
-- ==== Proof.KernelLayer1.lean ====
/-
  The host stretches after the first region: the layer's gather, scaling, scatter-add and bias, then the clamp.

  The two stretches are read one at a time. The first gathers row `source` of the region's result for every message, scales it by
  the weight column, scatter-adds the messages onto their targets from zero and adds the bias along every row: `aggT`. The
  second is the outlined clamp: the entrywise maximum with zero, `reluT`.
-/
import proofs.«141587_j24584392802582_1_alg».proof.Proof.Gen.KernelIdeal.Frame
import proofs.«141587_j24584392802582_1_alg».proof.Proof.Stages
import proofs.«141587_j24584392802582_1_alg».proof.Proof.LibFoldTools
import proofs.«141587_j24584392802582_1_alg».proof.Proof.KernelOps

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

section Stretch
variable (V : Valuation τ sig (Elt Ideal))

set_option maxHeartbeats 4000000 in
/-- The layer after its linear step, before the clamp. -/
theorem lay1_pre : after hostOps1 V (Proc.devRef .tc main_v46)
    = aggT (V (Proc.devRef .tc main_v31)) (V (Proc.devRef .tc main_v3)) (V (Proc.devRef .tc main_v6)) (V (Proc.devRef .tc main_v30)) (V (Proc.devRef .tc main_arg3)) := by
  after_results_simp
  unfold aggT wrapT
  all_goals (with_reducible rfl)

/-- The outlined clamp: the entrywise maximum with zero. -/
theorem lay1_relu : after hostOps1_1 V (Proc.devRef .tc main_v47) = reluT (V (Proc.devRef .tc main_v46)) := by
  after_results_simp
  simp only [TRef.toBuf, TRef.ofBuf, cast_eq]
  unfold reluT
  all_goals (with_reducible rfl)

/-- The first layer after its linear step, clamped. -/
theorem lay1_v47 : after hostOps1_1 (after hostOps1 V) (Proc.devRef .tc main_v47)
    = reluT (aggT (V (Proc.devRef .tc main_v31)) (V (Proc.devRef .tc main_v3)) (V (Proc.devRef .tc main_v6)) (V (Proc.devRef .tc main_v30)) (V (Proc.devRef .tc main_arg3))) := by
  rw [lay1_relu, lay1_pre]

end Stretch

end Cert.GCN

end
-- ==== Proof.KernelLayer2.lean ====
/-
  The host stretches after the second region: the layer's gather, scaling, scatter-add and bias, then the clamp.

  The two stretches are read one at a time. The first gathers row `source` of the region's result for every message, scales it by
  the weight column, scatter-adds the messages onto their targets from zero and adds the bias along every row: `aggT`. The
  second is the outlined clamp: the entrywise maximum with zero, `reluT`.
-/
import proofs.«141587_j24584392802582_1_alg».proof.Proof.Gen.KernelIdeal.Frame
import proofs.«141587_j24584392802582_1_alg».proof.Proof.Stages
import proofs.«141587_j24584392802582_1_alg».proof.Proof.LibFoldTools
import proofs.«141587_j24584392802582_1_alg».proof.Proof.KernelOps

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

section Stretch
variable (V : Valuation τ sig (Elt Ideal))

set_option maxHeartbeats 4000000 in
/-- The layer after its linear step, before the clamp. -/
theorem lay2_pre : after hostOps2 V (Proc.devRef .tc main_v63)
    = aggT (V (Proc.devRef .tc main_v48)) (V (Proc.devRef .tc main_v3)) (V (Proc.devRef .tc main_v6)) (V (Proc.devRef .tc main_v30)) (V (Proc.devRef .tc main_arg5)) := by
  after_results_simp
  unfold aggT wrapT
  all_goals (with_reducible rfl)

/-- The outlined clamp: the entrywise maximum with zero. -/
theorem lay2_relu : after hostOps2_1 V (Proc.devRef .tc main_v64) = reluT (V (Proc.devRef .tc main_v63)) := by
  after_results_simp
  simp only [TRef.toBuf, TRef.ofBuf, cast_eq]
  unfold reluT
  all_goals (with_reducible rfl)

/-- The second layer after its linear step, clamped. -/
theorem lay2_v64 : after hostOps2_1 (after hostOps2 V) (Proc.devRef .tc main_v64)
    = reluT (aggT (V (Proc.devRef .tc main_v48)) (V (Proc.devRef .tc main_v3)) (V (Proc.devRef .tc main_v6)) (V (Proc.devRef .tc main_v30)) (V (Proc.devRef .tc main_arg5))) := by
  rw [lay2_relu, lay2_pre]

end Stretch

end Cert.GCN

end
-- ==== Proof.KernelLayer3.lean ====
/-
  The host stretch after the third region: the third layer's gather, scaling, scatter-add and bias.
-/
import proofs.«141587_j24584392802582_1_alg».proof.Proof.Gen.KernelIdeal.Frame
import proofs.«141587_j24584392802582_1_alg».proof.Proof.Stages
import proofs.«141587_j24584392802582_1_alg».proof.Proof.LibFoldTools
import proofs.«141587_j24584392802582_1_alg».proof.Proof.KernelOps

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

section Stretch
variable (V : Valuation τ sig (Elt Ideal))

set_option maxHeartbeats 8000000 in
/-- The third layer after its linear step. -/
theorem lay3_v80 : after hostOps3 V (Proc.devRef .tc main_v80)
    = aggT (V (Proc.devRef .tc main_v65)) (V (Proc.devRef .tc main_v3)) (V (Proc.devRef .tc main_v6)) (V (Proc.devRef .tc main_v30)) (V (Proc.devRef .tc main_arg7)) := by
  after_results_simp
  unfold aggT wrapT
  with_reducible rfl

end Stretch

end Cert.GCN

end
-- ==== Proof.KernelFold.lean ====
/-
  The kernel program's buffer contents, read through the fold from the launch memory to the result.

  The contents at each segment boundary are read only at the few buffers the rest of the program uses: the two index
  vectors, the column of message weights, the current features and the arguments. A stretch of host operations is read
  as the stage function it computes of the contents it starts from, a region as `lin` of its two input arrays. Composed,
  the result buffer holds the three-layer network over the linear step `lin`.
-/
import proofs.«141587_j24584392802582_1_alg».proof.Proof.Gen.KernelIdeal.Frame
import proofs.«141587_j24584392802582_1_alg».proof.Proof.Stages
import proofs.«141587_j24584392802582_1_alg».proof.Proof.LibFoldTools
import proofs.«141587_j24584392802582_1_alg».proof.Proof.KernelRegion
import proofs.«141587_j24584392802582_1_alg».proof.Proof.KernelOps
import proofs.«141587_j24584392802582_1_alg».proof.Proof.KernelIdx
import proofs.«141587_j24584392802582_1_alg».proof.Proof.KernelNorm
import proofs.«141587_j24584392802582_1_alg».proof.Proof.KernelLayer1
import proofs.«141587_j24584392802582_1_alg».proof.Proof.KernelLayer2
import proofs.«141587_j24584392802582_1_alg».proof.Proof.KernelLayer3

set_option maxRecDepth 16384

noncomputable section

namespace Cert.GCN

open Cert.KernelIdeal Cert.KernelIdeal.Gen Idealize.ShloMosaic Idealize.ShloMosaic.TcCoe Idealize.SL.Sem
open Idealize.ShloMosaic.StableHlo
open Cert.FoldTools

/-! ## The fold, boundary by boundary

`W3` is the contents when the first region is entered, `W4` when it is left, `W6` / `W7` and `W9` / `W10` the same for the second and
third regions, `W11` the contents at the return. Each fact below reads one boundary at one buffer as a function of the launch memory `m`. -/

section Fold
variable (m : (ℓ : Loc nD τ sig) → Buf (Elt Ideal) ℓ) (ρ : Dev nD → PrngReg) (c : Dev nD)

/-- The contents at the first region's entry, with the first stretch cut after the index vectors. -/
theorem W3_eq : W3 m ρ c = after hostOps0_2 (after hostOps0_1 (after post11 (after pre7 (W0 m ρ c)))) := by
  show after hostOps0_2 (after hostOps0_1 (after hostOps0 (W0 m ρ c))) = _
  rw [hostOps0_split, StableHlo.after_append]

theorem W3_v3 : W3 m ρ c (Proc.devRef .tc main_v3) = (rowT (m ((c : Thread nD τ).loc main_arg1))) := by
  rw [W3_eq]; exact (mid_keep _ main_v3 (by decide)).trans (pre7_v3 _)
theorem W3_v6 : W3 m ρ c (Proc.devRef .tc main_v6) = (colT (m ((c : Thread nD τ).loc main_arg1))) := by
  rw [W3_eq]; exact (mid_keep _ main_v6 (by decide)).trans (pre7_v6 _)
theorem W3_v30 : W3 m ρ c (Proc.devRef .tc main_v30) = (normColT (rowT (m ((c : Thread nD τ).loc main_arg1))) (colT (m ((c : Thread nD τ).loc main_arg1)))) := by
  rw [W3_eq]; exact (mid_v30 _).trans (congrArg₂ normColT (pre7_v3 _) (pre7_v6 _))
theorem W3_arg0 : W3 m ρ c (Proc.devRef .tc main_arg0) = (m ((c : Thread nD τ).loc main_arg0)) := by
  rw [W3_eq]; exact (mid_keep _ main_arg0 (by decide)).trans (pre7_keep _ main_arg0 (by decide))
theorem W3_arg2 : W3 m ρ c (Proc.devRef .tc main_arg2) = (m ((c : Thread nD τ).loc main_arg2)) := by
  rw [W3_eq]; exact (mid_keep _ main_arg2 (by decide)).trans (pre7_keep _ main_arg2 (by decide))
theorem W3_arg3 : W3 m ρ c (Proc.devRef .tc main_arg3) = (m ((c : Thread nD τ).loc main_arg3)) := by
  rw [W3_eq]; exact (mid_keep _ main_arg3 (by decide)).trans (pre7_keep _ main_arg3 (by decide))
theorem W3_arg4 : W3 m ρ c (Proc.devRef .tc main_arg4) = (m ((c : Thread nD τ).loc main_arg4)) := by
  rw [W3_eq]; exact (mid_keep _ main_arg4 (by decide)).trans (pre7_keep _ main_arg4 (by decide))
theorem W3_arg5 : W3 m ρ c (Proc.devRef .tc main_arg5) = (m ((c : Thread nD τ).loc main_arg5)) := by
  rw [W3_eq]; exact (mid_keep _ main_arg5 (by decide)).trans (pre7_keep _ main_arg5 (by decide))
theorem W3_arg6 : W3 m ρ c (Proc.devRef .tc main_arg6) = (m ((c : Thread nD τ).loc main_arg6)) := by
  rw [W3_eq]; exact (mid_keep _ main_arg6 (by decide)).trans (pre7_keep _ main_arg6 (by decide))
theorem W3_arg7 : W3 m ρ c (Proc.devRef .tc main_arg7) = (m ((c : Thread nD τ).loc main_arg7)) := by
  rw [W3_eq]; exact (mid_keep _ main_arg7 (by decide)).trans (pre7_keep _ main_arg7 (by decide))

/-- The first region leaves `lin` of the features and the first weight. -/
theorem W4_v31 : W4 m ρ c (Proc.devRef .tc main_v31) = (lin (m ((c : Thread nD τ).loc main_arg0)) (m ((c : Thread nD τ).loc main_arg2))) :=
  ((W4_arr m ρ c 2).trans (region0 (V3 m ρ) c)).trans (congrArg₂ lin (W3_arg0 m ρ c) (W3_arg2 m ρ c))
theorem W4_v3 : W4 m ρ c (Proc.devRef .tc main_v3) = (rowT (m ((c : Thread nD τ).loc main_arg1))) := (W4_of_ne m ρ c main_v3 (by decide)).trans (W3_v3 m ρ c)
theorem W4_v6 : W4 m ρ c (Proc.devRef .tc main_v6) = (colT (m ((c : Thread nD τ).loc main_arg1))) := (W4_of_ne m ρ c main_v6 (by decide)).trans (W3_v6 m ρ c)
theorem W4_v30 : W4 m ρ c (Proc.devRef .tc main_v30) = (normColT (rowT (m ((c : Thread nD τ).loc main_arg1))) (colT (m ((c : Thread nD τ).loc main_arg1)))) := (W4_of_ne m ρ c main_v30 (by decide)).trans (W3_v30 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)

/-- The first layer's output, clamped: the second region's features. -/
theorem W6_v47 : W6 m ρ c (Proc.devRef .tc main_v47) = (reluT (aggT (lin (m ((c : Thread nD τ).loc main_arg0)) (m ((c : Thread nD τ).loc main_arg2))) (rowT (m ((c : Thread nD τ).loc main_arg1))) (colT (m ((c : Thread nD τ).loc main_arg1))) (normColT (rowT (m ((c : Thread nD τ).loc main_arg1))) (colT (m ((c : Thread nD τ).loc main_arg1)))) (m ((c : Thread nD τ).loc main_arg3)))) :=
  (lay1_v47 (W4 m ρ c)).trans (by rw [W4_v31, W4_v3, W4_v6, W4_v30, W4_arg3])
theorem W6_v3 : W6 m ρ c (Proc.devRef .tc main_v3) = (rowT (m ((c : Thread nD τ).loc main_arg1))) := (lay1_keep _ main_v3 (by decide)).trans (W4_v3 m ρ c)
theorem W6_v6 : W6 m ρ c (Proc.devRef .tc main_v6) = (colT (m ((c : Thread nD τ).loc main_arg1))) := (lay1_keep _ main_v6 (by decide)).trans (W4_v6 m ρ c)
theorem W6_v30 : W6 m ρ c (Proc.devRef .tc main_v30) = (normColT (rowT (m ((c : Thread nD τ).loc main_arg1))) (colT (m ((c : Thread nD τ).loc main_arg1)))) := (lay1_keep _ main_v30 (by decide)).trans (W4_v30 m ρ c)
theorem W6_arg4 : W6 m ρ c (Proc.devRef .tc main_arg4) = (m ((c : Thread nD τ).loc main_arg4)) := (lay1_keep _ main_arg4 (by decide)).trans (W4_arg4 m ρ c)
theorem W6_arg5 : W6 m ρ c (Proc.devRef .tc main_arg5) = (m ((c : Thread nD τ).loc main_arg5)) := (lay1_keep _ main_arg5 (by decide)).trans (W4_arg5 m ρ c)
theorem W6_arg6 : W6 m ρ c (Proc.devRef .tc main_arg6) = (m ((c : Thread nD τ).loc main_arg6)) := (lay1_keep _ main_arg6 (by decide)).trans (W4_arg6 m ρ c)
theorem W6_arg7 : W6 m ρ c (Proc.devRef .tc main_arg7) = (m ((c : Thread nD τ).loc main_arg7)) := (lay1_keep _ main_arg7 (by decide)).trans (W4_arg7 m ρ c)

/-- The second region leaves `lin` of the first layer's output and the second weight. -/
theorem W7_v48 : W7 m ρ c (Proc.devRef .tc main_v48) = (lin (reluT (aggT (lin (m ((c : Thread nD τ).loc main_arg0)) (m ((c : Thread nD τ).loc main_arg2))) (rowT (m ((c : Thread nD τ).loc main_arg1))) (colT (m ((c : Thread nD τ).loc main_arg1))) (normColT (rowT (m ((c : Thread nD τ).loc main_arg1))) (colT (m ((c : Thread nD τ).loc main_arg1)))) (m ((c : Thread nD τ).loc main_arg3)))) (m ((c : Thread nD τ).loc main_arg4))) :=
  ((W7_arr m ρ c 2).trans (region1 (V6 m ρ) c)).trans (congrArg₂ lin (W6_v47 m ρ c) (W6_arg4 m ρ c))
theorem W7_v3 : W7 m ρ c (Proc.devRef .tc main_v3) = (rowT (m ((c : Thread nD τ).loc main_arg1))) := (W7_of_ne m ρ c main_v3 (by decide)).trans (W6_v3 m ρ c)
theorem W7_v6 : W7 m ρ c (Proc.devRef .tc main_v6) = (colT (m ((c : Thread nD τ).loc main_arg1))) := (W7_of_ne m ρ c main_v6 (by decide)).trans (W6_v6 m ρ c)
theorem W7_v30 : W7 m ρ c (Proc.devRef .tc main_v30) = (normColT (rowT (m ((c : Thread nD τ).loc main_arg1))) (colT (m ((c : Thread nD τ).loc main_arg1)))) := (W7_of_ne m ρ c main_v30 (by decide)).trans (W6_v30 m ρ c)
theorem W7_arg5 : W7 m ρ c (Proc.devRef .tc main_arg5) = (m ((c : Thread nD τ).loc main_arg5)) := (W7_of_ne m ρ c main_arg5 (by decide)).trans (W6_arg5 m ρ c)
theorem W7_arg6 : W7 m ρ c (Proc.devRef .tc main_arg6) = (m ((c : Thread nD τ).loc main_arg6)) := (W7_of_ne m ρ c main_arg6 (by decide)).trans (W6_arg6 m ρ c)
theorem W7_arg7 : W7 m ρ c (Proc.devRef .tc main_arg7) = (m ((c : Thread nD τ).loc main_arg7)) := (W7_of_ne m ρ c main_arg7 (by decide)).trans (W6_arg7 m ρ c)

/-- The second layer's output, clamped: the third region's features. -/
theorem W9_v64 : W9 m ρ c (Proc.devRef .tc main_v64) = (reluT (aggT (lin (reluT (aggT (lin (m ((c : Thread nD τ).loc main_arg0)) (m ((c : Thread nD τ).loc main_arg2))) (rowT (m ((c : Thread nD τ).loc main_arg1))) (colT (m ((c : Thread nD τ).loc main_arg1))) (normColT (rowT (m ((c : Thread nD τ).loc main_arg1))) (colT (m ((c : Thread nD τ).loc main_arg1)))) (m ((c : Thread nD τ).loc main_arg3)))) (m ((c : Thread nD τ).loc main_arg4))) (rowT (m ((c : Thread nD τ).loc main_arg1))) (colT (m ((c : Thread nD τ).loc main_arg1))) (normColT (rowT (m ((c : Thread nD τ).loc main_arg1))) (colT (m ((c : Thread nD τ).loc main_arg1)))) (m ((c : Thread nD τ).loc main_arg5)))) :=
  (lay2_v64 (W7 m ρ c)).trans (by rw [W7_v48, W7_v3, W7_v6, W7_v30, W7_arg5])
theorem W9_v3 : W9 m ρ c (Proc.devRef .tc main_v3) = (rowT (m ((c : Thread nD τ).loc main_arg1))) := (lay2_keep _ main_v3 (by decide)).trans (W7_v3 m ρ c)
theorem W9_v6 : W9 m ρ c (Proc.devRef .tc main_v6) = (colT (m ((c : Thread nD τ).loc main_arg1))) := (lay2_keep _ main_v6 (by decide)).trans (W7_v6 m ρ c)
theorem W9_v30 : W9 m ρ c (Proc.devRef .tc main_v30) = (normColT (rowT (m ((c : Thread nD τ).loc main_arg1))) (colT (m ((c : Thread nD τ).loc main_arg1)))) := (lay2_keep _ main_v30 (by decide)).trans (W7_v30 m ρ c)
theorem W9_arg6 : W9 m ρ c (Proc.devRef .tc main_arg6) = (m ((c : Thread nD τ).loc main_arg6)) := (lay2_keep _ main_arg6 (by decide)).trans (W7_arg6 m ρ c)
theorem W9_arg7 : W9 m ρ c (Proc.devRef .tc main_arg7) = (m ((c : Thread nD τ).loc main_arg7)) := (lay2_keep _ main_arg7 (by decide)).trans (W7_arg7 m ρ c)

/-- The third region leaves `lin` of the second layer's output and the third weight. -/
theorem W10_v65 : W10 m ρ c (Proc.devRef .tc main_v65) = (lin (reluT (aggT (lin (reluT (aggT (lin (m ((c : Thread nD τ).loc main_arg0)) (m ((c : Thread nD τ).loc main_arg2))) (rowT (m ((c : Thread nD τ).loc main_arg1))) (colT (m ((c : Thread nD τ).loc main_arg1))) (normColT (rowT (m ((c : Thread nD τ).loc main_arg1))) (colT (m ((c : Thread nD τ).loc main_arg1)))) (m ((c : Thread nD τ).loc main_arg3)))) (m ((c : Thread nD τ).loc main_arg4))) (rowT (m ((c : Thread nD τ).loc main_arg1))) (colT (m ((c : Thread nD τ).loc main_arg1))) (normColT (rowT (m ((c : Thread nD τ).loc main_arg1))) (colT (m ((c : Thread nD τ).loc main_arg1)))) (m ((c : Thread nD τ).loc main_arg5)))) (m ((c : Thread nD τ).loc main_arg6))) :=
  ((W10_arr m ρ c 2).trans (region2 (V9 m ρ) c)).trans (congrArg₂ lin (W9_v64 m ρ c) (W9_arg6 m ρ c))
theorem W10_v3 : W10 m ρ c (Proc.devRef .tc main_v3) = (rowT (m ((c : Thread nD τ).loc main_arg1))) := (W10_of_ne m ρ c main_v3 (by decide)).trans (W9_v3 m ρ c)
theorem W10_v6 : W10 m ρ c (Proc.devRef .tc main_v6) = (colT (m ((c : Thread nD τ).loc main_arg1))) := (W10_of_ne m ρ c main_v6 (by decide)).trans (W9_v6 m ρ c)
theorem W10_v30 : W10 m ρ c (Proc.devRef .tc main_v30) = (normColT (rowT (m ((c : Thread nD τ).loc main_arg1))) (colT (m ((c : Thread nD τ).loc main_arg1)))) := (W10_of_ne m ρ c main_v30 (by decide)).trans (W9_v30 m ρ c)
theorem W10_arg7 : W10 m ρ c (Proc.devRef .tc main_arg7) = (m ((c : Thread nD τ).loc main_arg7)) := (W10_of_ne m ρ c main_arg7 (by decide)).trans (W9_arg7 m ρ c)

/-- THE RESULT: at the return the result buffer holds the three-layer network over `lin` of the eight arguments. -/
theorem result_eq : W11 m ρ c (Proc.devRef .tc main_v80)
    = netT lin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (lay3_v80 (W10 m ρ c)).trans (by unfold netT; rw [W10_v65, W10_v3, W10_v6, W10_v30, W10_arg7])

end Fold

end Cert.GCN

end
-- ==== Proof.RefRun.lean ====
/-
  The reference program's run: every buffer's final contents as a fold of its operations.

  The reference has no kernel: its @main is a straight line of 109 host operations (the two outlined calls' operations
  standing in their calls' places). Every weakly fair execution terminates without a fault, and every buffer ends at the
  fold of the operations over the launch contents: each operation rewrites the buffer it writes and leaves the rest.
  No operation writes an argument array, so the arguments end as launched.
-/
import proofs.«141587_j24584392802582_1_alg».proof.Proof.Gen.ReferenceIdeal
import Idealize.ShloMosaic.Lib.StableHlo.Run

noncomputable section

namespace Cert.GCN.Ref

open Cert.ReferenceIdeal Cert.ReferenceIdeal.Gen Idealize.ShloMosaic Idealize.ShloMosaic.TcCoe Idealize.SL.Sem Idealize.ShloMosaic.StableHlo

variable {F : FTy → Type} [FloatOps F]

/-- @main's 109 operations, in order. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_arg2 main_v30 ((transpose S256x256 [1, 0] · transposes_S256x256_S256x256_1_0) : (⟨S256x256, .f32⟩ : BufTy).Contents (Elt F) → (⟨S256x256, .f32⟩ : BufTy).Contents (Elt F)),
    binary main_arg0 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x256 ![0, 1] bcast_S850000x1_S850000x256_0_1 : (⟨S850000x1, .f32⟩ : BufTy).Contents (Elt F) → (⟨S850000x256, .f32⟩ : BufTy).Contents (Elt F)),
    binary main_v38 main_v40 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf,
    unary main_arg4 main_v49 ((transpose S256x256 [1, 0] · transposes_S256x256_S256x256_1_0) : (⟨S256x256, .f32⟩ : BufTy).Contents (Elt F) → (⟨S256x256, .f32⟩ : BufTy).Contents (Elt F)),
    binary main_v48 main_v49 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_9 (constantI S_ 32 0#32),
    unary main_c_9 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x256 ![0, 1] bcast_S850000x1_S850000x256_0_1 : (⟨S850000x1, .f32⟩ : BufTy).Contents (Elt F) → (⟨S850000x256, .f32⟩ : BufTy).Contents (Elt F)),
    binary main_v57 main_v59 main_v60 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v61 (broadcastInDim S50000x256 ![] bcast_S_S50000x256 : (⟨S_, .f32⟩ : BufTy).Contents (Elt F) → (⟨S50000x256, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v66) (TRef.of (T := ⟨S50000x256, .f32⟩) main_call2_v0) (TRef.of (T := ⟨S50000x256, .f32⟩) main_v67) maximumf,
    unary main_arg6 main_v68 ((transpose S256x256 [1, 0] · transposes_S256x256_S256x256_1_0) : (⟨S256x256, .f32⟩ : BufTy).Contents (Elt F) → (⟨S256x256, .f32⟩ : BufTy).Contents (Elt F)),
    binary main_v67 main_v68 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_12 (constantI S_ 32 0#32),
    unary main_c_12 main_v70 (broadcastInDim S850000 ![] bcast_S_S850000 : (⟨S_, .i32⟩ : BufTy).Contents (Elt F) → (⟨S850000, .i32⟩ : BufTy).Contents (Elt F)),
    binary main_v3 main_v70 main_v71 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v72 (broadcastInDim S850000 ![] bcast_S_S850000 : (⟨S_, .i32⟩ : BufTy).Contents (Elt F) → (⟨S850000, .i32⟩ : BufTy).Contents (Elt F)),
    binary main_v3 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v69 main_v75 main_v76 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v77 (broadcastInDim S850000x1 ![0] bcast_S850000_S850000x1_0 : (⟨S850000, .f32⟩ : BufTy).Contents (Elt F) → (⟨S850000x1, .f32⟩ : BufTy).Contents (Elt F)),
    unary main_v77 main_v78 (broadcastInDim S850000x256 ![0, 1] bcast_S850000x1_S850000x256_0_1 : (⟨S850000x1, .f32⟩ : BufTy).Contents (Elt F) → (⟨S850000x256, .f32⟩ : BufTy).Contents (Elt F)),
    binary main_v76 main_v78 main_v79 (mulf : (⟨S850000x256, .f32⟩ : BufTy).Contents (Elt F) → (⟨S850000x256, .f32⟩ : BufTy).Contents (Elt F) → (⟨S850000x256, .f32⟩ : BufTy).Contents (Elt F)),
    nullary main_cst_14 (constant S_ .f32 0x00000000#32),
    unary main_cst_14 main_v80 (broadcastInDim S50000x256 ![] bcast_S_S50000x256 : (⟨S_, .f32⟩ : BufTy).Contents (Elt F) → (⟨S50000x256, .f32⟩ : BufTy).Contents (Elt F)),
    unary main_v6 main_v81 (broadcastInDim S850000x1 ![0] bcast_S850000_S850000x1_0 : (⟨S850000, .i32⟩ : BufTy).Contents (Elt F) → (⟨S850000x1, .i32⟩ : BufTy).Contents (Elt F)),
    ternary main_v80 main_v81 main_v79 main_v82 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg7 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v82 main_v84 main_v85 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every weakly fair execution of the reference terminates, and every buffer ends at the fold of the operations over
    the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.GCN.Ref

end
-- ==== Proof.RefOps.lean ====
/-
  The reference's 109 operations cut into five lists, and what each leaves alone.

  The cuts fall where the kernel program's segments end: after the two index vectors, after the message weights, and after
  each of the three layers. For each cut the references its operations write are listed once; any other reference keeps
  its contents through the cut. The stage functions name the kernel program's dimension records; the reference's records
  are the same records (equal fields), which the four equalities here state once.
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

/-! ## The two programs' dimension records are the same records -/

theorem rec0 : Cert.KernelIdeal.scatter_S50000_S850000x1_S850000_n_0_0_1 = Cert.ReferenceIdeal.scatter_S50000_S850000x1_S850000_n_0_0_1 := rfl
theorem rec1 : Cert.KernelIdeal.gather_S50000_S850000x1_S850000_n_0_n_n_0_1_1 = Cert.ReferenceIdeal.gather_S50000_S850000x1_S850000_n_0_n_n_0_1_1 := rfl
theorem rec2 : Cert.KernelIdeal.gather_S50000x256_S850000x1_S850000x256_1_0_n_n_0_1_1256 = Cert.ReferenceIdeal.gather_S50000x256_S850000x1_S850000x256_1_0_n_n_0_1_1256 := rfl
theorem rec3 : Cert.KernelIdeal.scatter_S50000x256_S850000x1_S850000x256_1_0_0_1 = Cert.ReferenceIdeal.scatter_S50000x256_S850000x1_S850000x256_1_0_0_1 := rfl

/-! ## The cuts -/

section Lists
variable {F : FTy → Type} [FloatOps F]

/-- The first seven operations: the two index vectors. -/
abbrev rpre7 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The degree, its inverse square root where positive, and each message's weight. -/
abbrev rmid : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]
/-- The first layer: transpose, product, gather, scale, scatter-add, bias, clamp. -/
abbrev rlay1 : List (HloOp τ sig (Elt F)) :=
  [ unary main_arg2 main_v30 ((transpose S256x256 [1, 0] · transposes_S256x256_S256x256_1_0) : (⟨S256x256, .f32⟩ : BufTy).Contents (Elt F) → (⟨S256x256, .f32⟩ : BufTy).Contents (Elt F)),
    binary main_arg0 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x256 ![0, 1] bcast_S850000x1_S850000x256_0_1 : (⟨S850000x1, .f32⟩ : BufTy).Contents (Elt F) → (⟨S850000x256, .f32⟩ : BufTy).Contents (Elt F)),
    binary main_v38 main_v40 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf ]
/-- The second layer. -/
abbrev rlay2 : List (HloOp τ sig (Elt F)) :=
  [ unary main_arg4 main_v49 ((transpose S256x256 [1, 0] · transposes_S256x256_S256x256_1_0) : (⟨S256x256, .f32⟩ : BufTy).Contents (Elt F) → (⟨S256x256, .f32⟩ : BufTy).Contents (Elt F)),
    binary main_v48 main_v49 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_9 (constantI S_ 32 0#32),
    unary main_c_9 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x256 ![0, 1] bcast_S850000x1_S850000x256_0_1 : (⟨S850000x1, .f32⟩ : BufTy).Contents (Elt F) → (⟨S850000x256, .f32⟩ : BufTy).Contents (Elt F)),
    binary main_v57 main_v59 main_v60 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v61 (broadcastInDim S50000x256 ![] bcast_S_S50000x256 : (⟨S_, .f32⟩ : BufTy).Contents (Elt F) → (⟨S50000x256, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v66) (TRef.of (T := ⟨S50000x256, .f32⟩) main_call2_v0) (TRef.of (T := ⟨S50000x256, .f32⟩) main_v67) maximumf ]
/-- The third layer (no clamp). -/
abbrev rlay3 : List (HloOp τ sig (Elt F)) :=
  [ unary main_arg6 main_v68 ((transpose S256x256 [1, 0] · transposes_S256x256_S256x256_1_0) : (⟨S256x256, .f32⟩ : BufTy).Contents (Elt F) → (⟨S256x256, .f32⟩ : BufTy).Contents (Elt F)),
    binary main_v67 main_v68 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_12 (constantI S_ 32 0#32),
    unary main_c_12 main_v70 (broadcastInDim S850000 ![] bcast_S_S850000 : (⟨S_, .i32⟩ : BufTy).Contents (Elt F) → (⟨S850000, .i32⟩ : BufTy).Contents (Elt F)),
    binary main_v3 main_v70 main_v71 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v72 (broadcastInDim S850000 ![] bcast_S_S850000 : (⟨S_, .i32⟩ : BufTy).Contents (Elt F) → (⟨S850000, .i32⟩ : BufTy).Contents (Elt F)),
    binary main_v3 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v69 main_v75 main_v76 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v77 (broadcastInDim S850000x1 ![0] bcast_S850000_S850000x1_0 : (⟨S850000, .f32⟩ : BufTy).Contents (Elt F) → (⟨S850000x1, .f32⟩ : BufTy).Contents (Elt F)),
    unary main_v77 main_v78 (broadcastInDim S850000x256 ![0, 1] bcast_S850000x1_S850000x256_0_1 : (⟨S850000x1, .f32⟩ : BufTy).Contents (Elt F) → (⟨S850000x256, .f32⟩ : BufTy).Contents (Elt F)),
    binary main_v76 main_v78 main_v79 (mulf : (⟨S850000x256, .f32⟩ : BufTy).Contents (Elt F) → (⟨S850000x256, .f32⟩ : BufTy).Contents (Elt F) → (⟨S850000x256, .f32⟩ : BufTy).Contents (Elt F)),
    nullary main_cst_14 (constant S_ .f32 0x00000000#32),
    unary main_cst_14 main_v80 (broadcastInDim S50000x256 ![] bcast_S_S50000x256 : (⟨S_, .f32⟩ : BufTy).Contents (Elt F) → (⟨S50000x256, .f32⟩ : BufTy).Contents (Elt F)),
    unary main_v6 main_v81 (broadcastInDim S850000x1 ![0] bcast_S850000_S850000x1_0 : (⟨S850000, .i32⟩ : BufTy).Contents (Elt F) → (⟨S850000x1, .i32⟩ : BufTy).Contents (Elt F)),
    ternary main_v80 main_v81 main_v79 main_v82 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg7 main_v83 (broadcastInDim S1x256 ![1] bcast_S256_S1x256_1 : (⟨S256, .f32⟩ : BufTy).Contents (Elt F) → (⟨S1x256, .f32⟩ : BufTy).Contents (Elt F)),
    unary main_v83 main_v84 (broadcastInDim S50000x256 ![0, 1] bcast_S1x256_S50000x256_0_1 : (⟨S1x256, .f32⟩ : BufTy).Contents (Elt F) → (⟨S50000x256, .f32⟩ : BufTy).Contents (Elt F)),
    binary main_v82 main_v84 main_v85 (addf : (⟨S50000x256, .f32⟩ : BufTy).Contents (Elt F) → (⟨S50000x256, .f32⟩ : BufTy).Contents (Elt F) → (⟨S50000x256, .f32⟩ : BufTy).Contents (Elt F)) ]
theorem ops_split : (ops : List (HloOp τ sig (Elt F))) = rpre7 ++ (rmid ++ (rlay1 ++ (rlay2 ++ rlay3))) := rfl

abbrev rpre7_W : List (Ref sig .tc) := [main_v0, main_v1, main_v2, main_v3, main_v4, main_v5, main_v6]
abbrev rmid_W : List (Ref sig .tc) := [main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
abbrev rlay1_W : List (Ref sig .tc) := [main_v30, main_v31, main_c_6, main_v32, main_v33, main_c_7, main_v34, main_v35, main_v36, main_v37, main_v38, main_v39, main_v40, main_v41, main_cst_8, main_v42, main_v43, main_v44, main_v45, main_v46, main_v47, main_call1_cst, main_call1_v0, main_v48]
abbrev rlay2_W : List (Ref sig .tc) := [main_v49, main_v50, main_c_9, main_v51, main_v52, main_c_10, main_v53, main_v54, main_v55, main_v56, main_v57, main_v58, main_v59, main_v60, main_cst_11, main_v61, main_v62, main_v63, main_v64, main_v65, main_v66, main_call2_cst, main_call2_v0, main_v67]
abbrev rlay3_W : List (Ref sig .tc) := [main_v68, main_v69, main_c_12, main_v70, main_v71, main_c_13, main_v72, main_v73, main_v74, main_v75, main_v76, main_v77, main_v78, main_v79, main_cst_14, main_v80, main_v81, main_v82, main_v83, main_v84, main_v85]

theorem rpre7_writes : (rpre7 : List (HloOp τ sig (Elt F))).Forall fun op => op.writes ⊆ (rpre7_W.map (Proc.devRef (τ := τ) .tc)).toFinset := by
  simp only [rpre7, List.Forall]
  repeat' apply And.intro
  all_goals (simp only [nullary_writes, unary_writes, binary_writes, ternary_writes, quaternary_writes, reshape_writes, Finset.singleton_subset_iff, List.mem_toFinset]; exact List.mem_map_of_mem (by decide))
theorem rmid_writes : (rmid : List (HloOp τ sig (Elt F))).Forall fun op => op.writes ⊆ (rmid_W.map (Proc.devRef (τ := τ) .tc)).toFinset := by
  simp only [rmid, List.Forall]
  repeat' apply And.intro
  all_goals (simp only [nullary_writes, unary_writes, binary_writes, ternary_writes, quaternary_writes, reshape_writes, Finset.singleton_subset_iff, List.mem_toFinset]; exact List.mem_map_of_mem (by decide))
theorem rlay1_writes : (rlay1 : List (HloOp τ sig (Elt F))).Forall fun op => op.writes ⊆ (rlay1_W.map (Proc.devRef (τ := τ) .tc)).toFinset := by
  simp only [rlay1, List.Forall]
  repeat' apply And.intro
  all_goals (simp only [nullary_writes, unary_writes, binary_writes, ternary_writes, quaternary_writes, reshape_writes, Finset.singleton_subset_iff, List.mem_toFinset]; exact List.mem_map_of_mem (by decide))
theorem rlay2_writes : (rlay2 : List (HloOp τ sig (Elt F))).Forall fun op => op.writes ⊆ (rlay2_W.map (Proc.devRef (τ := τ) .tc)).toFinset := by
  simp only [rlay2, List.Forall]
  repeat' apply And.intro
  all_goals (simp only [nullary_writes, unary_writes, binary_writes, ternary_writes, quaternary_writes, reshape_writes, Finset.singleton_subset_iff, List.mem_toFinset]; exact List.mem_map_of_mem (by decide))
theorem rlay3_writes : (rlay3 : List (HloOp τ sig (Elt F))).Forall fun op => op.writes ⊆ (rlay3_W.map (Proc.devRef (τ := τ) .tc)).toFinset := by
  simp only [rlay3, List.Forall]
  repeat' apply And.intro
  all_goals (simp only [nullary_writes, unary_writes, binary_writes, ternary_writes, quaternary_writes, reshape_writes, Finset.singleton_subset_iff, List.mem_toFinset]; exact List.mem_map_of_mem (by decide))

end Lists

section Keep
variable (V : Valuation τ sig (Elt Ideal))

theorem rpre7_keep (r : Ref sig .tc) (h : r ∉ rpre7_W) : after rpre7 V (Proc.devRef .tc r) = V (Proc.devRef .tc r) :=
  after_of_writes_sub rpre7 _ rpre7_writes h
theorem rmid_keep (r : Ref sig .tc) (h : r ∉ rmid_W) : after rmid V (Proc.devRef .tc r) = V (Proc.devRef .tc r) :=
  after_of_writes_sub rmid _ rmid_writes h
theorem rlay1_keep (r : Ref sig .tc) (h : r ∉ rlay1_W) : after rlay1 V (Proc.devRef .tc r) = V (Proc.devRef .tc r) :=
  after_of_writes_sub rlay1 _ rlay1_writes h
theorem rlay2_keep (r : Ref sig .tc) (h : r ∉ rlay2_W) : after rlay2 V (Proc.devRef .tc r) = V (Proc.devRef .tc r) :=
  after_of_writes_sub rlay2 _ rlay2_writes h

end Keep

end Cert.GCN.Ref

end
-- ==== Proof.RefIdx.lean ====
/-
  The reference's two index vectors after its first seven operations: the same functions of the edge list as the kernel
  program's.
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame
import proofs.«141587_j24584392802582_1_alg».proof.Proof.RefOps

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

section Cut
variable (V : Valuation τ sig (Elt Ideal))

/-- The source index vector after the first seven operations. -/
theorem rpre7_v3 : after rpre7 V (Proc.devRef .tc main_v3) = rowT (V (Proc.devRef .tc main_arg1)) := by
  simp only [rpre7, after_cons, after_nil]
  hlo_results
  unfold rowT
  refine concat2_congr _ _ _ _ _ ?_ ?_
  · hlo_results
    all_goals rfl
  · hlo_results
    all_goals rfl

/-- The target index vector after the first seven operations. -/
theorem rpre7_v6 : after rpre7 V (Proc.devRef .tc main_v6) = colT (V (Proc.devRef .tc main_arg1)) := by
  simp only [rpre7, after_cons, after_nil]
  hlo_results
  unfold colT
  refine concat2_congr _ _ _ _ _ ?_ ?_
  · hlo_results
    all_goals rfl
  · hlo_results
    all_goals rfl

end Cut

end Cert.GCN.Ref

end
-- ==== Proof.RefNorm.lean ====
/-
  The reference's message weights, as a function of the two index vectors.

  The cut is read in its three pieces: the degree of every node (ones scatter-added onto the targets), its comparison with
  zero and its inverse square root; the outlined select, which keeps the inverse square root where the degree is positive
  and puts zero elsewhere; and the gathers of that vector at the wrapped source and target of every message, multiplied.
  Composed, the weights are `normT` of the two index vectors.
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame
import proofs.«141587_j24584392802582_1_alg».proof.Proof.RefOps

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

section Lists
variable {F : FTy → Type} [FloatOps F]

/-- The degree, its comparison with zero, its inverse square root. -/
abbrev rmidA : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]
/-- The outlined select. -/
abbrev rmidB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]
/-- The two gathers and their product. -/
abbrev rmidC : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]
theorem rmid_split : (rmid : List (HloOp τ sig (Elt F))) = rmidA ++ (rmidB ++ rmidC) := rfl
theorem rmidA_writes : (rmidA : List (HloOp τ sig (Elt F))).Forall fun op => op.writes ⊆ (rmid_W.map (Proc.devRef (τ := τ) .tc)).toFinset := by
  simp only [rmidA, List.Forall]
  repeat' apply And.intro
  all_goals (simp only [nullary_writes, unary_writes, binary_writes, ternary_writes, quaternary_writes, reshape_writes, Finset.singleton_subset_iff, List.mem_toFinset]; exact List.mem_map_of_mem (by decide))
theorem rmidB_writes : (rmidB : List (HloOp τ sig (Elt F))).Forall fun op => op.writes ⊆ (rmid_W.map (Proc.devRef (τ := τ) .tc)).toFinset := by
  simp only [rmidB, List.Forall]
  repeat' apply And.intro
  all_goals (simp only [nullary_writes, unary_writes, binary_writes, ternary_writes, quaternary_writes, reshape_writes, Finset.singleton_subset_iff, List.mem_toFinset]; exact List.mem_map_of_mem (by decide))
theorem rmidC_writes : (rmidC : List (HloOp τ sig (Elt F))).Forall fun op => op.writes ⊆ (rmid_W.map (Proc.devRef (τ := τ) .tc)).toFinset := by
  simp only [rmidC, List.Forall]
  repeat' apply And.intro
  all_goals (simp only [nullary_writes, unary_writes, binary_writes, ternary_writes, quaternary_writes, reshape_writes, Finset.singleton_subset_iff, List.mem_toFinset]; exact List.mem_map_of_mem (by decide))

end Lists

section Cut
variable (V : Valuation τ sig (Elt Ideal))

set_option maxHeartbeats 4000000 in
/-- The degree compared with zero. -/
theorem rmidA_v12 : after rmidA V (Proc.devRef .tc main_v12)
    = cmpf (F := Ideal) .ogt (degT (V (Proc.devRef .tc main_v6))) (broadcastInDim S50000 ![] bcast_S_S50000 (constant (F := Ideal) S_ .f32 0x00000000#32)) := by
  after_results_simp
  unfold degT
  simp only [rec0, rec1, rec2, rec3]
  all_goals (with_reducible rfl)

set_option maxHeartbeats 4000000 in
/-- The degree's inverse square root. -/
theorem rmidA_v13 : after rmidA V (Proc.devRef .tc main_v13) = Host.rsqrt (F := Ideal) (degT (V (Proc.devRef .tc main_v6))) := by
  after_results_simp
  unfold degT
  simp only [rec0, rec1, rec2, rec3]
  all_goals (with_reducible rfl)

/-- The zero the select falls back to. -/
theorem rmidA_cst2 : after rmidA V (Proc.devRef .tc main_cst_2) = constant (F := Ideal) S_ .f32 0x00000000#32 := by
  after_results_simp

/-- The outlined select: the second operand where the mask is set, the broadcast scalar elsewhere. -/
theorem rmidB_v14 : after rmidB V (Proc.devRef .tc main_v14)
    = select (V (Proc.devRef .tc main_v12)) (V (Proc.devRef .tc main_v13)) (broadcastInDim S50000 ![] bcast_S_S50000 (id (V (Proc.devRef .tc main_cst_2)))) := by
  after_results_simp
  simp only [TRef.toBuf, TRef.ofBuf, cast_eq]
  all_goals (with_reducible rfl)

set_option maxHeartbeats 4000000 in
/-- The weights from the select's result and the two index vectors. -/
theorem rmidC_v29 : after rmidC V (Proc.devRef .tc main_v29)
    = (mulf (Host.gather gather_S50000_S850000x1_S850000_n_0_n_n_0_1_1 (V (Proc.devRef .tc main_v14)) (wrapT (V (Proc.devRef .tc main_v3))))
        (Host.gather gather_S50000_S850000x1_S850000_n_0_n_n_0_1_1 (V (Proc.devRef .tc main_v14)) (wrapT (V (Proc.devRef .tc main_v6)))) : FVec Ideal S850000 .f32) := by
  after_results_simp
  unfold wrapT
  all_goals (with_reducible rfl)

/-- The select's result is `dinvT` of the target index vector. -/
theorem rmid_v14 : after rmidB (after rmidA V) (Proc.devRef .tc main_v14) = dinvT (V (Proc.devRef .tc main_v6)) := by
  rw [rmidB_v14, rmidA_v12, rmidA_v13, rmidA_cst2]
  rfl

/-- Each message's weight, from the two index vectors. -/
theorem rmid_v29 : after rmid V (Proc.devRef .tc main_v29) = normT (V (Proc.devRef .tc main_v3)) (V (Proc.devRef .tc main_v6)) := by
  rw [rmid_split, StableHlo.after_append, StableHlo.after_append, rmidC_v29, rmid_v14,
    (after_of_writes_sub rmidB _ rmidB_writes (by decide : main_v3 ∉ rmid_W)),
    (after_of_writes_sub rmidA _ rmidA_writes (by decide : main_v3 ∉ rmid_W)),
    (after_of_writes_sub rmidB _ rmidB_writes (by decide : main_v6 ∉ rmid_W)),
    (after_of_writes_sub rmidA _ rmidA_writes (by decide : main_v6 ∉ rmid_W))]
  unfold normT
  simp only [rec0, rec1, rec2, rec3]

end Cut

end Cert.GCN.Ref

end
-- ==== Proof.RefLayer1.lean ====
/-
  The reference's first layer.

  The cut is read in two pieces. The first transposes the weight and multiplies the features by it — `lin` —, gathers row
  `source` of the product for every message, scales it by the weights set as a column, scatter-adds the messages onto their
  targets from zero and adds the bias along every row: `aggT`. The second is the outlined clamp, `reluT`.
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame
import proofs.«141587_j24584392802582_1_alg».proof.Proof.RefOps

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

section Lists
variable {F : FTy → Type} [FloatOps F]

/-- The layer up to its bias. -/
abbrev rlay1a : List (HloOp τ sig (Elt F)) :=
  [ unary main_arg2 main_v30 ((transpose S256x256 [1, 0] · transposes_S256x256_S256x256_1_0) : (⟨S256x256, .f32⟩ : BufTy).Contents (Elt F) → (⟨S256x256, .f32⟩ : BufTy).Contents (Elt F)),
    binary main_arg0 main_v30 main_v31 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x256 ![0, 1] bcast_S850000x1_S850000x256_0_1 : (⟨S850000x1, .f32⟩ : BufTy).Contents (Elt F) → (⟨S850000x256, .f32⟩ : BufTy).Contents (Elt F)),
    binary main_v38 main_v40 main_v41 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v42 (broadcastInDim S50000x256 ![] bcast_S_S50000x256 : (⟨S_, .f32⟩ : BufTy).Contents (Elt F) → (⟨S50000x256, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v45 (broadcastInDim S1x256 ![1] bcast_S256_S1x256_1 : (⟨S256, .f32⟩ : BufTy).Contents (Elt F) → (⟨S1x256, .f32⟩ : BufTy).Contents (Elt F)),
    unary main_v45 main_v46 (broadcastInDim S50000x256 ![0, 1] bcast_S1x256_S50000x256_0_1 : (⟨S1x256, .f32⟩ : BufTy).Contents (Elt F) → (⟨S50000x256, .f32⟩ : BufTy).Contents (Elt F)),
    binary main_v44 main_v46 main_v47 (addf : (⟨S50000x256, .f32⟩ : BufTy).Contents (Elt F) → (⟨S50000x256, .f32⟩ : BufTy).Contents (Elt F) → (⟨S50000x256, .f32⟩ : BufTy).Contents (Elt F)) ]
/-- The outlined clamp. -/
abbrev rlay1b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v47) (TRef.of (T := ⟨S50000x256, .f32⟩) main_call1_v0) (TRef.of (T := ⟨S50000x256, .f32⟩) main_v48) maximumf ]
theorem rlay1_split : (rlay1 : List (HloOp τ sig (Elt F))) = rlay1a ++ rlay1b := rfl

end Lists

section Cut
variable (V : Valuation τ sig (Elt Ideal))

set_option maxHeartbeats 4000000 in
/-- The layer before the clamp. -/
theorem rlay1_pre : after rlay1a V (Proc.devRef .tc main_v47)
    = aggT (lin (V (Proc.devRef .tc main_arg0)) (V (Proc.devRef .tc main_arg2))) (V (Proc.devRef .tc main_v3)) (V (Proc.devRef .tc main_v6)) (colOf (V (Proc.devRef .tc main_v29))) (V (Proc.devRef .tc main_arg3)) := by
  after_results_simp
  unfold aggT wrapT colOf lin
  simp only [rec0, rec1, rec2, rec3]
  all_goals (with_reducible rfl)

/-- The outlined clamp: the entrywise maximum with zero. -/
theorem rlay1_relu : after rlay1b V (Proc.devRef .tc main_v48) = reluT (V (Proc.devRef .tc main_v47)) := by
  after_results_simp
  simp only [TRef.toBuf, TRef.ofBuf, cast_eq]
  unfold reluT
  all_goals (with_reducible rfl)

/-- The first layer, clamped. -/
theorem rlay1_v48 : after rlay1 V (Proc.devRef .tc main_v48)
    = reluT (aggT (lin (V (Proc.devRef .tc main_arg0)) (V (Proc.devRef .tc main_arg2))) (V (Proc.devRef .tc main_v3)) (V (Proc.devRef .tc main_v6)) (colOf (V (Proc.devRef .tc main_v29))) (V (Proc.devRef .tc main_arg3))) := by
  rw [rlay1_split, StableHlo.after_append, rlay1_relu, rlay1_pre]

end Cut

end Cert.GCN.Ref

end
-- ==== Proof.RefLayer2.lean ====
/-
  The reference's second layer.

  The cut is read in two pieces. The first transposes the weight and multiplies the features by it — `lin` —, gathers row
  `source` of the product for every message, scales it by the weights set as a column, scatter-adds the messages onto their
  targets from zero and adds the bias along every row: `aggT`. The second is the outlined clamp, `reluT`.
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame
import proofs.«141587_j24584392802582_1_alg».proof.Proof.RefOps

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

section Lists
variable {F : FTy → Type} [FloatOps F]

/-- The layer up to its bias. -/
abbrev rlay2a : List (HloOp τ sig (Elt F)) :=
  [ unary main_arg4 main_v49 ((transpose S256x256 [1, 0] · transposes_S256x256_S256x256_1_0) : (⟨S256x256, .f32⟩ : BufTy).Contents (Elt F) → (⟨S256x256, .f32⟩ : BufTy).Contents (Elt F)),
    binary main_v48 main_v49 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_9 (constantI S_ 32 0#32),
    unary main_c_9 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x256 ![0, 1] bcast_S850000x1_S850000x256_0_1 : (⟨S850000x1, .f32⟩ : BufTy).Contents (Elt F) → (⟨S850000x256, .f32⟩ : BufTy).Contents (Elt F)),
    binary main_v57 main_v59 main_v60 (mulf : (⟨S850000x256, .f32⟩ : BufTy).Contents (Elt F) → (⟨S850000x256, .f32⟩ : BufTy).Contents (Elt F) → (⟨S850000x256, .f32⟩ : BufTy).Contents (Elt F)),
    nullary main_cst_11 (constant S_ .f32 0x00000000#32),
    unary main_cst_11 main_v61 (broadcastInDim S50000x256 ![] bcast_S_S50000x256 : (⟨S_, .f32⟩ : BufTy).Contents (Elt F) → (⟨S50000x256, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg5 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)) ]
/-- The outlined clamp. -/
abbrev rlay2b : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v66) (TRef.of (T := ⟨S50000x256, .f32⟩) main_call2_v0) (TRef.of (T := ⟨S50000x256, .f32⟩) main_v67) maximumf ]
theorem rlay2_split : (rlay2 : List (HloOp τ sig (Elt F))) = rlay2a ++ rlay2b := rfl

end Lists

section Cut
variable (V : Valuation τ sig (Elt Ideal))

set_option maxHeartbeats 4000000 in
/-- The layer before the clamp. -/
theorem rlay2_pre : after rlay2a V (Proc.devRef .tc main_v66)
    = aggT (lin (V (Proc.devRef .tc main_v48)) (V (Proc.devRef .tc main_arg4))) (V (Proc.devRef .tc main_v3)) (V (Proc.devRef .tc main_v6)) (colOf (V (Proc.devRef .tc main_v29))) (V (Proc.devRef .tc main_arg5)) := by
  after_results_simp
  unfold aggT wrapT colOf lin
  simp only [rec0, rec1, rec2, rec3]
  all_goals (with_reducible rfl)

/-- The outlined clamp: the entrywise maximum with zero. -/
theorem rlay2_relu : after rlay2b V (Proc.devRef .tc main_v67) = reluT (V (Proc.devRef .tc main_v66)) := by
  after_results_simp
  simp only [TRef.toBuf, TRef.ofBuf, cast_eq]
  unfold reluT
  all_goals (with_reducible rfl)

/-- The second layer, clamped. -/
theorem rlay2_v67 : after rlay2 V (Proc.devRef .tc main_v67)
    = reluT (aggT (lin (V (Proc.devRef .tc main_v48)) (V (Proc.devRef .tc main_arg4))) (V (Proc.devRef .tc main_v3)) (V (Proc.devRef .tc main_v6)) (colOf (V (Proc.devRef .tc main_v29))) (V (Proc.devRef .tc main_arg5))) := by
  rw [rlay2_split, StableHlo.after_append, rlay2_relu, rlay2_pre]

end Cut

end Cert.GCN.Ref

end
-- ==== Proof.RefLayer3.lean ====
/-
  The reference's third layer (no clamp).
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame
import proofs.«141587_j24584392802582_1_alg».proof.Proof.RefOps

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

section Cut
variable (V : Valuation τ sig (Elt Ideal))

set_option maxHeartbeats 8000000 in
/-- The third layer. -/
theorem rlay3_v85 : after rlay3 V (Proc.devRef .tc main_v85)
    = aggT (lin (V (Proc.devRef .tc main_v67)) (V (Proc.devRef .tc main_arg6))) (V (Proc.devRef .tc main_v3)) (V (Proc.devRef .tc main_v6))
        (colOf (V (Proc.devRef .tc main_v29))) (V (Proc.devRef .tc main_arg7)) := by
  after_results_simp
  unfold aggT wrapT colOf lin
  simp only [rec0, rec1, rec2, rec3]
  all_goals (with_reducible rfl)

end Cut

end Cert.GCN.Ref

end
-- ==== Proof.RefFold.lean ====
/-
  The reference program's buffer contents, read through the fold from the launch memory to the result.

  Each of the five cuts is read as the stage function it computes of the contents it starts from; the reference's linear
  step is `lin` itself. Composed, the result buffer holds the three-layer network over `lin` — the same function of the
  arguments as the kernel program's — and no operation writes an argument.
-/
import proofs.«141587_j24584392802582_1_alg».proof.Proof.RefRun
import proofs.«141587_j24584392802582_1_alg».proof.Proof.Stages
import proofs.«141587_j24584392802582_1_alg».proof.Proof.Linear
import proofs.«141587_j24584392802582_1_alg».proof.Proof.LibFoldTools
import Idealize.ShloMosaic.Lib.Pipeline.Frame
import proofs.«141587_j24584392802582_1_alg».proof.Proof.RefOps
import proofs.«141587_j24584392802582_1_alg».proof.Proof.RefIdx
import proofs.«141587_j24584392802582_1_alg».proof.Proof.RefNorm
import proofs.«141587_j24584392802582_1_alg».proof.Proof.RefLayer1
import proofs.«141587_j24584392802582_1_alg».proof.Proof.RefLayer2
import proofs.«141587_j24584392802582_1_alg».proof.Proof.RefLayer3

set_option maxRecDepth 16384

noncomputable section

namespace Cert.GCN.Ref

open Cert.ReferenceIdeal Cert.ReferenceIdeal.Gen Idealize.ShloMosaic Idealize.ShloMosaic.TcCoe Idealize.SL.Sem
open Idealize.ShloMosaic.StableHlo
open Cert.FoldTools

/-! ## The fold, cut by cut -/

section Fold
variable (m : (ℓ : Loc nD τ sig) → Buf (Elt Ideal) ℓ) (c : Dev nD)

/-- The whole fold is the five cuts' folds, in order. -/
theorem fold_eq (V : Valuation τ sig (Elt Ideal)) :
    after ops V = after rlay3 (after rlay2 (after rlay1 (after rmid (after rpre7 V)))) := by
  rw [ops_split, StableHlo.after_append, StableHlo.after_append, StableHlo.after_append, StableHlo.after_append]

/-- No operation writes a reference outside the five cuts' written lists. -/
theorem all_keep (V : Valuation τ sig (Elt Ideal)) (r : Ref sig .tc) (h1 : r ∉ rpre7_W) (h2 : r ∉ rmid_W) (h3 : r ∉ rlay1_W)
    (h4 : r ∉ rlay2_W) (h5 : r ∉ rlay3_W) : after ops V (Proc.devRef .tc r) = V (Proc.devRef .tc r) := by
  rw [fold_eq]
  exact (after_of_writes_sub rlay3 _ rlay3_writes h5).trans ((rlay2_keep _ r h4).trans ((rlay1_keep _ r h3).trans
    ((rmid_keep _ r h2).trans (rpre7_keep _ r h1))))

theorem X1_v3 : after rpre7 (launchContents m c) (Proc.devRef .tc main_v3) = (rowT (m ((c.tc : Thread nD τ).loc main_arg1))) := rpre7_v3 _
theorem X1_v6 : after rpre7 (launchContents m c) (Proc.devRef .tc main_v6) = (colT (m ((c.tc : Thread nD τ).loc main_arg1))) := rpre7_v6 _
theorem X1_arg0 : after rpre7 (launchContents m c) (Proc.devRef .tc main_arg0) = (m ((c.tc : Thread nD τ).loc main_arg0)) := rpre7_keep _ main_arg0 (by decide)
theorem X1_arg2 : after rpre7 (launchContents m c) (Proc.devRef .tc main_arg2) = (m ((c.tc : Thread nD τ).loc main_arg2)) := rpre7_keep _ main_arg2 (by decide)
theorem X1_arg3 : after rpre7 (launchContents m c) (Proc.devRef .tc main_arg3) = (m ((c.tc : Thread nD τ).loc main_arg3)) := rpre7_keep _ main_arg3 (by decide)
theorem X1_arg4 : after rpre7 (launchContents m c) (Proc.devRef .tc main_arg4) = (m ((c.tc : Thread nD τ).loc main_arg4)) := rpre7_keep _ main_arg4 (by decide)
theorem X1_arg5 : after rpre7 (launchContents m c) (Proc.devRef .tc main_arg5) = (m ((c.tc : Thread nD τ).loc main_arg5)) := rpre7_keep _ main_arg5 (by decide)
theorem X1_arg6 : after rpre7 (launchContents m c) (Proc.devRef .tc main_arg6) = (m ((c.tc : Thread nD τ).loc main_arg6)) := rpre7_keep _ main_arg6 (by decide)
theorem X1_arg7 : after rpre7 (launchContents m c) (Proc.devRef .tc main_arg7) = (m ((c.tc : Thread nD τ).loc main_arg7)) := rpre7_keep _ main_arg7 (by decide)

theorem X2_v29 : after rmid (after rpre7 (launchContents m c)) (Proc.devRef .tc main_v29) = (normT (rowT (m ((c.tc : Thread nD τ).loc main_arg1))) (colT (m ((c.tc : Thread nD τ).loc main_arg1)))) := (rmid_v29 _).trans (congrArg₂ normT (X1_v3 m c) (X1_v6 m c))
theorem X2_v3 : after rmid (after rpre7 (launchContents m c)) (Proc.devRef .tc main_v3) = (rowT (m ((c.tc : Thread nD τ).loc main_arg1))) := (rmid_keep _ main_v3 (by decide)).trans (X1_v3 m c)
theorem X2_v6 : after rmid (after rpre7 (launchContents m c)) (Proc.devRef .tc main_v6) = (colT (m ((c.tc : Thread nD τ).loc main_arg1))) := (rmid_keep _ main_v6 (by decide)).trans (X1_v6 m c)
theorem X2_arg0 : after rmid (after rpre7 (launchContents m c)) (Proc.devRef .tc main_arg0) = (m ((c.tc : Thread nD τ).loc main_arg0)) := (rmid_keep _ main_arg0 (by decide)).trans (X1_arg0 m c)
theorem X2_arg2 : after rmid (after rpre7 (launchContents m c)) (Proc.devRef .tc main_arg2) = (m ((c.tc : Thread nD τ).loc main_arg2)) := (rmid_keep _ main_arg2 (by decide)).trans (X1_arg2 m c)
theorem X2_arg3 : after rmid (after rpre7 (launchContents m c)) (Proc.devRef .tc main_arg3) = (m ((c.tc : Thread nD τ).loc main_arg3)) := (rmid_keep _ main_arg3 (by decide)).trans (X1_arg3 m c)
theorem X2_arg4 : after rmid (after rpre7 (launchContents m c)) (Proc.devRef .tc main_arg4) = (m ((c.tc : Thread nD τ).loc main_arg4)) := (rmid_keep _ main_arg4 (by decide)).trans (X1_arg4 m c)
theorem X2_arg5 : after rmid (after rpre7 (launchContents m c)) (Proc.devRef .tc main_arg5) = (m ((c.tc : Thread nD τ).loc main_arg5)) := (rmid_keep _ main_arg5 (by decide)).trans (X1_arg5 m c)
theorem X2_arg6 : after rmid (after rpre7 (launchContents m c)) (Proc.devRef .tc main_arg6) = (m ((c.tc : Thread nD τ).loc main_arg6)) := (rmid_keep _ main_arg6 (by decide)).trans (X1_arg6 m c)
theorem X2_arg7 : after rmid (after rpre7 (launchContents m c)) (Proc.devRef .tc main_arg7) = (m ((c.tc : Thread nD τ).loc main_arg7)) := (rmid_keep _ main_arg7 (by decide)).trans (X1_arg7 m c)

/-- The first layer's output, clamped. -/
theorem X3_v48 : after rlay1 (after rmid (after rpre7 (launchContents m c))) (Proc.devRef .tc main_v48) = (reluT (aggT (lin (m ((c.tc : Thread nD τ).loc main_arg0)) (m ((c.tc : Thread nD τ).loc main_arg2))) (rowT (m ((c.tc : Thread nD τ).loc main_arg1))) (colT (m ((c.tc : Thread nD τ).loc main_arg1))) (colOf (normT (rowT (m ((c.tc : Thread nD τ).loc main_arg1))) (colT (m ((c.tc : Thread nD τ).loc main_arg1))))) (m ((c.tc : Thread nD τ).loc main_arg3)))) :=
  (rlay1_v48 _).trans (by rw [X2_arg0, X2_arg2, X2_v3, X2_v6, X2_v29, X2_arg3])
theorem X3_v3 : after rlay1 (after rmid (after rpre7 (launchContents m c))) (Proc.devRef .tc main_v3) = (rowT (m ((c.tc : Thread nD τ).loc main_arg1))) := (rlay1_keep _ main_v3 (by decide)).trans (X2_v3 m c)
theorem X3_v6 : after rlay1 (after rmid (after rpre7 (launchContents m c))) (Proc.devRef .tc main_v6) = (colT (m ((c.tc : Thread nD τ).loc main_arg1))) := (rlay1_keep _ main_v6 (by decide)).trans (X2_v6 m c)
theorem X3_v29 : after rlay1 (after rmid (after rpre7 (launchContents m c))) (Proc.devRef .tc main_v29) = (normT (rowT (m ((c.tc : Thread nD τ).loc main_arg1))) (colT (m ((c.tc : Thread nD τ).loc main_arg1)))) := (rlay1_keep _ main_v29 (by decide)).trans (X2_v29 m c)
theorem X3_arg4 : after rlay1 (after rmid (after rpre7 (launchContents m c))) (Proc.devRef .tc main_arg4) = (m ((c.tc : Thread nD τ).loc main_arg4)) := (rlay1_keep _ main_arg4 (by decide)).trans (X2_arg4 m c)
theorem X3_arg5 : after rlay1 (after rmid (after rpre7 (launchContents m c))) (Proc.devRef .tc main_arg5) = (m ((c.tc : Thread nD τ).loc main_arg5)) := (rlay1_keep _ main_arg5 (by decide)).trans (X2_arg5 m c)
theorem X3_arg6 : after rlay1 (after rmid (after rpre7 (launchContents m c))) (Proc.devRef .tc main_arg6) = (m ((c.tc : Thread nD τ).loc main_arg6)) := (rlay1_keep _ main_arg6 (by decide)).trans (X2_arg6 m c)
theorem X3_arg7 : after rlay1 (after rmid (after rpre7 (launchContents m c))) (Proc.devRef .tc main_arg7) = (m ((c.tc : Thread nD τ).loc main_arg7)) := (rlay1_keep _ main_arg7 (by decide)).trans (X2_arg7 m c)

/-- The second layer's output, clamped. -/
theorem X4_v67 : after rlay2 (after rlay1 (after rmid (after rpre7 (launchContents m c)))) (Proc.devRef .tc main_v67) = (reluT (aggT (lin (reluT (aggT (lin (m ((c.tc : Thread nD τ).loc main_arg0)) (m ((c.tc : Thread nD τ).loc main_arg2))) (rowT (m ((c.tc : Thread nD τ).loc main_arg1))) (colT (m ((c.tc : Thread nD τ).loc main_arg1))) (colOf (normT (rowT (m ((c.tc : Thread nD τ).loc main_arg1))) (colT (m ((c.tc : Thread nD τ).loc main_arg1))))) (m ((c.tc : Thread nD τ).loc main_arg3)))) (m ((c.tc : Thread nD τ).loc main_arg4))) (rowT (m ((c.tc : Thread nD τ).loc main_arg1))) (colT (m ((c.tc : Thread nD τ).loc main_arg1))) (colOf (normT (rowT (m ((c.tc : Thread nD τ).loc main_arg1))) (colT (m ((c.tc : Thread nD τ).loc main_arg1))))) (m ((c.tc : Thread nD τ).loc main_arg5)))) :=
  (rlay2_v67 _).trans (by rw [X3_v48, X3_arg4, X3_v3, X3_v6, X3_v29, X3_arg5])
theorem X4_v3 : after rlay2 (after rlay1 (after rmid (after rpre7 (launchContents m c)))) (Proc.devRef .tc main_v3) = (rowT (m ((c.tc : Thread nD τ).loc main_arg1))) := (rlay2_keep _ main_v3 (by decide)).trans (X3_v3 m c)
theorem X4_v6 : after rlay2 (after rlay1 (after rmid (after rpre7 (launchContents m c)))) (Proc.devRef .tc main_v6) = (colT (m ((c.tc : Thread nD τ).loc main_arg1))) := (rlay2_keep _ main_v6 (by decide)).trans (X3_v6 m c)
theorem X4_v29 : after rlay2 (after rlay1 (after rmid (after rpre7 (launchContents m c)))) (Proc.devRef .tc main_v29) = (normT (rowT (m ((c.tc : Thread nD τ).loc main_arg1))) (colT (m ((c.tc : Thread nD τ).loc main_arg1)))) := (rlay2_keep _ main_v29 (by decide)).trans (X3_v29 m c)
theorem X4_arg6 : after rlay2 (after rlay1 (after rmid (after rpre7 (launchContents m c)))) (Proc.devRef .tc main_arg6) = (m ((c.tc : Thread nD τ).loc main_arg6)) := (rlay2_keep _ main_arg6 (by decide)).trans (X3_arg6 m c)
theorem X4_arg7 : after rlay2 (after rlay1 (after rmid (after rpre7 (launchContents m c)))) (Proc.devRef .tc main_arg7) = (m ((c.tc : Thread nD τ).loc main_arg7)) := (rlay2_keep _ main_arg7 (by decide)).trans (X3_arg7 m c)

/-- THE RESULT: at the return the reference's result buffer holds the three-layer network over `lin` of the eight arguments. -/
theorem result_eq : after ops (launchContents m c) (Proc.devRef .tc main_v85)
    = netT lin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [fold_eq]
  exact (rlay3_v85 _).trans (by unfold netT normColT; rw [X4_v67, X4_arg6, X4_v3, X4_v6, X4_v29, X4_arg7])

theorem kept_arg0 : after ops (launchContents m c) (Proc.devRef .tc main_arg0) = (m ((c.tc : Thread nD τ).loc main_arg0)) :=
  all_keep _ main_arg0 (by decide) (by decide) (by decide) (by decide) (by decide)
theorem kept_arg1 : after ops (launchContents m c) (Proc.devRef .tc main_arg1) = (m ((c.tc : Thread nD τ).loc main_arg1)) :=
  all_keep _ main_arg1 (by decide) (by decide) (by decide) (by decide) (by decide)
theorem kept_arg2 : after ops (launchContents m c) (Proc.devRef .tc main_arg2) = (m ((c.tc : Thread nD τ).loc main_arg2)) :=
  all_keep _ main_arg2 (by decide) (by decide) (by decide) (by decide) (by decide)
theorem kept_arg3 : after ops (launchContents m c) (Proc.devRef .tc main_arg3) = (m ((c.tc : Thread nD τ).loc main_arg3)) :=
  all_keep _ main_arg3 (by decide) (by decide) (by decide) (by decide) (by decide)
theorem kept_arg4 : after ops (launchContents m c) (Proc.devRef .tc main_arg4) = (m ((c.tc : Thread nD τ).loc main_arg4)) :=
  all_keep _ main_arg4 (by decide) (by decide) (by decide) (by decide) (by decide)
theorem kept_arg5 : after ops (launchContents m c) (Proc.devRef .tc main_arg5) = (m ((c.tc : Thread nD τ).loc main_arg5)) :=
  all_keep _ main_arg5 (by decide) (by decide) (by decide) (by decide) (by decide)
theorem kept_arg6 : after ops (launchContents m c) (Proc.devRef .tc main_arg6) = (m ((c.tc : Thread nD τ).loc main_arg6)) :=
  all_keep _ main_arg6 (by decide) (by decide) (by decide) (by decide) (by decide)
theorem kept_arg7 : after ops (launchContents m c) (Proc.devRef .tc main_arg7) = (m ((c.tc : Thread nD τ).loc main_arg7)) :=
  all_keep _ main_arg7 (by decide) (by decide) (by decide) (by decide) (by decide)

end Fold

end Cert.GCN.Ref

end
-- ==== Proof.lean ====
/-
  The certificate of a three-layer graph-convolution network: a kernel program against its reference.

  Both programs compute, from node features `x`, an edge list `e`, and three weight / bias pairs, the same network: the
  edge list is extended by one self loop per node, every message gets the weight `deg^(-1/2)[source] · deg^(-1/2)[target]`,
  and each layer transforms the features linearly (`h · Wᵀ`), gathers the source rows, scales them by the message weights,
  scatter-adds them onto the target nodes and adds the bias; the first two layers are clamped below at zero. The two
  programs run the same host operations for everything but the linear step. The reference multiplies `h` by the transpose
  of `W` on the host. The kernel program runs a kernel over ten blocks of 5000 rows: each block is narrowed to bf16 (the
  identity on the extended reals), multiplied by the narrowed weight along the second axis of each into a zero accumulator,
  and written back. Entry `(r, q)` of either is `∑ k, h[r, k] · W[q, k]`, so the kernel's result array IS the reference's
  product (Proof/KernelRegion.lean, against Proof/Linear.lean), and both programs' results are the one function
  `netT lin` of the arguments (Proof/Stages.lean; the kernel program's buffers read in Proof/KernelFold.lean, the
  reference's in Proof/RefFold.lean). No law that fails at the infinities is used — only that a sum does not depend on
  its order — so the precondition is never opened.

  The frames: the kernel programs' are the generated ones; the reference's is its run with the result dropped
  (Proof/RefRun.lean). The idealization rewrote nothing, so `preserves` is trivial.
-/
import proofs.«141587_j24584392802582_1_alg».proof.Defs
import proofs.«141587_j24584392802582_1_alg».proof.Proof.Gen.Kernel
import proofs.«141587_j24584392802582_1_alg».proof.Proof.Gen.Kernel.Skeleton
import proofs.«141587_j24584392802582_1_alg».proof.Proof.Gen.Kernel.Launch
import proofs.«141587_j24584392802582_1_alg».proof.Proof.Gen.Kernel.Points
import proofs.«141587_j24584392802582_1_alg».proof.Proof.Gen.Kernel.Frame
import proofs.«141587_j24584392802582_1_alg».proof.Proof.Gen.KernelIdeal
import proofs.«141587_j24584392802582_1_alg».proof.Proof.Gen.KernelIdeal.Skeleton
import proofs.«141587_j24584392802582_1_alg».proof.Proof.Gen.KernelIdeal.Launch
import proofs.«141587_j24584392802582_1_alg».proof.Proof.Gen.KernelIdeal.Points
import proofs.«141587_j24584392802582_1_alg».proof.Proof.Gen.KernelIdeal.Frame
import proofs.«141587_j24584392802582_1_alg».proof.Proof.Gen.ReferenceIdeal
import proofs.«141587_j24584392802582_1_alg».proof.Proof.Gen.Pre_finite_inputs
import proofs.«141587_j24584392802582_1_alg».proof.Proof.KernelRun
import proofs.«141587_j24584392802582_1_alg».proof.Proof.KernelFold
import proofs.«141587_j24584392802582_1_alg».proof.Proof.RefRun
import proofs.«141587_j24584392802582_1_alg».proof.Proof.RefFold
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: no operation writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.GCN.Ref.kept_arg0 m c),
     (h c Cert.ReferenceIdeal.main_arg1).trans (Cert.GCN.Ref.kept_arg1 m c),
     (h c Cert.ReferenceIdeal.main_arg2).trans (Cert.GCN.Ref.kept_arg2 m c),
     (h c Cert.ReferenceIdeal.main_arg3).trans (Cert.GCN.Ref.kept_arg3 m c),
     (h c Cert.ReferenceIdeal.main_arg4).trans (Cert.GCN.Ref.kept_arg4 m c),
     (h c Cert.ReferenceIdeal.main_arg5).trans (Cert.GCN.Ref.kept_arg5 m c),
     (h c Cert.ReferenceIdeal.main_arg6).trans (Cert.GCN.Ref.kept_arg6 m c),
     (h c Cert.ReferenceIdeal.main_arg7).trans (Cert.GCN.Ref.kept_arg7 m c)⟩)
    (Cert.GCN.Ref.run_after (F := Ideal) m ρ)

/-- The idealization rewrote no operation. -/
theorem preserves : Cert.preserves_Kernel_KernelIdeal := trivial

/-- From memories agreeing on the arguments both programs end with the result `netT lin` of the arguments: the kernel
    program by its named run and its fold, the reference by its run and its fold, the two arguments' lists identified by the
    agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GCN.netT Cert.GCN.lin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.GCN.result_eq m ρ c), (h c).2⟩)
      (Cert.GCN.run_result (F := Ideal) m ρ)
  · refine (θ_run Cert.ReferenceIdeal.defs _ _).mono (fun r h c => ⟨?_,
      (h c Cert.ReferenceIdeal.main_arg0).trans (Cert.GCN.Ref.kept_arg0 m' c),
      (h c Cert.ReferenceIdeal.main_arg1).trans (Cert.GCN.Ref.kept_arg1 m' c),
      (h c Cert.ReferenceIdeal.main_arg2).trans (Cert.GCN.Ref.kept_arg2 m' c),
      (h c Cert.ReferenceIdeal.main_arg3).trans (Cert.GCN.Ref.kept_arg3 m' c),
      (h c Cert.ReferenceIdeal.main_arg4).trans (Cert.GCN.Ref.kept_arg4 m' c),
      (h c Cert.ReferenceIdeal.main_arg5).trans (Cert.GCN.Ref.kept_arg5 m' c),
      (h c Cert.ReferenceIdeal.main_arg6).trans (Cert.GCN.Ref.kept_arg6 m' c),
      (h c Cert.ReferenceIdeal.main_arg7).trans (Cert.GCN.Ref.kept_arg7 m' c)⟩)
      (Cert.GCN.Ref.run_after (F := Ideal) m' ρ')
    refine (h c Cert.ReferenceIdeal.main_v85).trans ((Cert.GCN.Ref.result_eq m' c).trans ?_)
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
